-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x262144 : Shape := ⟨2, ![32, 262144]⟩
abbrev S32x262144x4 : Shape := ⟨3, ![32, 262144, 4]⟩
abbrev S_ : Shape := ⟨0, ![]⟩

class Facts : Prop where
  bcast_S_S32x262144 : S_.BroadcastsInDim S32x262144 (![] : Fin 0 → Fin S32x262144.rank)
  reducesTo_S32x262144_S_d0_1 : S32x262144.ReducesTo [0, 1] S_
  h_S_ : 0 < S_.numel
  bcast_S_S32x262144x4 : S_.BroadcastsInDim S32x262144x4 (![] : Fin 0 → Fin S32x262144x4.rank)
  reducesTo_S32x262144x4_S_d0_1_2 : S32x262144x4.ReducesTo [0, 1, 2] S_

variable [Facts]

def fn {F : FTy → Type} [FloatOps F] (main_arg0 : FVec F S32x262144 .f32) (main_arg1 : FVec F S32x262144x4 .f32) : IVec S_ 1 :=
  let main_v0 : FVec F S32x262144 .f32 := Host.absf main_arg0
  let main_cst : FVec F S_ .f32 := constant S_ .f32 0x7F800000#32
  let main_v1 : FVec F S32x262144 .f32 := broadcastInDim S32x262144 ![] bcast_S_S32x262144 main_cst
  let main_v2 : IVec S32x262144 1 := cmpf .olt main_v0 main_v1
  let main_c : IVec S_ 1 := constantI S_ 1 1#1
  let main_v3 : IVec S_ 1 := (fun x v => Host.reduce IntOp.andi x v reducesTo_S32x262144_S_d0_1 h_S_) main_v2 main_c
  let main_v4 : FVec F S32x262144x4 .f32 := Host.absf main_arg1
  let main_cst_0 : FVec F S_ .f32 := constant S_ .f32 0x7F800000#32
  let main_v5 : FVec F S32x262144x4 .f32 := broadcastInDim S32x262144x4 ![] bcast_S_S32x262144x4 main_cst_0
  let main_v6 : IVec S32x262144x4 1 := cmpf .olt main_v4 main_v5
  let main_c_1 : IVec S_ 1 := constantI S_ 1 1#1
  let main_v7 : IVec S_ 1 := (fun x v => Host.reduce IntOp.andi x v reducesTo_S32x262144x4_S_d0_1_2 h_S_) main_v6 main_c_1
  let main_v8 : IVec S_ 1 := andi main_v3 main_v7
  main_v8
-- ==== Kernel.lean ====
abbrev S32x262144 : Shape := ⟨2, ![32, 262144]⟩
abbrev S32x262144x4 : Shape := ⟨3, ![32, 262144, 4]⟩
abbrev S32x2x131072 : Shape := ⟨3, ![32, 2, 131072]⟩
abbrev S32x131072x2 : Shape := ⟨3, ![32, 131072, 2]⟩
abbrev S32x262144x1 : Shape := ⟨3, ![32, 262144, 1]⟩
abbrev S_ : Shape := ⟨0, ![]⟩
abbrev S1 : Shape := ⟨1, ![1]⟩
abbrev S1x1x1 : Shape := ⟨3, ![1, 1, 1]⟩
abbrev S32x262144x2 : Shape := ⟨3, ![32, 262144, 2]⟩
abbrev S32x4096x128 : Shape := ⟨3, ![32, 4096, 128]⟩
abbrev S32x1x1 : Shape := ⟨3, ![32, 1, 1]⟩
abbrev S1x2048x128 : Shape := ⟨3, ![1, 2048, 128]⟩
abbrev S1x2048 : Shape := ⟨2, ![1, 2048]⟩
abbrev S1x2048x1 : Shape := ⟨3, ![1, 2048, 1]⟩
abbrev S1x1 : Shape := ⟨2, ![1, 1]⟩

abbrev nBuf : Space → Nat
  | .hbm => 63
  | .vmem => 10
  | .smem => 0
  | _ => 0

abbrev bufTy : (tb : Table) → Fin (tcTables nBuf tb) → BufTy
  | .hbm, ⟨0, _⟩ => ⟨S32x262144, .f32⟩
  | .hbm, ⟨1, _⟩ => ⟨S32x262144x4, .f32⟩
  | .hbm, ⟨2, _⟩ => ⟨S32x2x131072, .f32⟩
  | .hbm, ⟨3, _⟩ => ⟨S32x131072x2, .f32⟩
  | .hbm, ⟨4, _⟩ => ⟨S32x262144x1, .f32⟩
  | .hbm, ⟨5, _⟩ => ⟨S32x262144, .f32⟩
  | .hbm, ⟨6, _⟩ => ⟨S32x262144, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S32x262144, .i32⟩
  | .hbm, ⟨11, _⟩ => ⟨S32x262144, .i32⟩
  | .hbm, ⟨12, _⟩ => ⟨S_, .i32⟩
  | .hbm, ⟨13, _⟩ => ⟨S32x262144, .i32⟩
  | .hbm, ⟨14, _⟩ => ⟨S32x262144, .i32⟩
  | .hbm, ⟨15, _⟩ => ⟨S32x262144x1, .i32⟩
  | .hbm, ⟨16, _⟩ => ⟨S_, .i32⟩
  | .hbm, ⟨17, _⟩ => ⟨S32x262144x1, .i32⟩
  | .hbm, ⟨18, _⟩ => ⟨S32x262144x1, .i1⟩
  | .hbm, ⟨19, _⟩ => ⟨S_, .i32⟩
  | .hbm, ⟨20, _⟩ => ⟨S32x262144x1, .i32⟩
  | .hbm, ⟨21, _⟩ => ⟨S32x262144x1, .i32⟩
  | .hbm, ⟨22, _⟩ => ⟨S32x262144x1, .i32⟩
  | .hbm, ⟨23, _⟩ => ⟨S1, .i32⟩
  | .hbm, ⟨24, _⟩ => ⟨S_, .i32⟩
  | .hbm, ⟨25, _⟩ => ⟨S32x262144x1, .i32⟩
  | .hbm, ⟨26, _⟩ => ⟨S32x262144x1, .i1⟩
  | .hbm, ⟨27, _⟩ => ⟨S1x1x1, .i32⟩
  | .hbm, ⟨28, _⟩ => ⟨S32x262144x1, .i32⟩
  | .hbm, ⟨29, _⟩ => ⟨S32x262144x1, .i1⟩
  | .hbm, ⟨30, _⟩ => ⟨S32x262144x1, .i1⟩
  | .hbm, ⟨31, _⟩ => ⟨S_, .i1⟩
  | .hbm, ⟨32, _⟩ => ⟨S32x262144, .i1⟩
  | .hbm, ⟨33, _⟩ => ⟨S32x262144x2, .f32⟩
  | .hbm, ⟨34, _⟩ => ⟨S32x262144x2, .i1⟩
  | .hbm, ⟨35, _⟩ => ⟨S_, .f32⟩
  | .hbm, ⟨36, _⟩ => ⟨S32x262144x2, .f32⟩
  | .hbm, ⟨37, _⟩ => ⟨S32x262144x2, .f32⟩
  | .hbm, ⟨38, _⟩ => ⟨S32x262144x2, .f32⟩
  | .hbm, ⟨39, _⟩ => ⟨S32x262144x1, .f32⟩
  | .hbm, ⟨40, _⟩ => ⟨S32x262144, .f32⟩
  | .hbm, ⟨41, _⟩ => ⟨S_, .f32⟩
  | .hbm, ⟨42, _⟩ => ⟨S32x262144, .f32⟩
  | .hbm, ⟨43, _⟩ => ⟨S32x262144, .i1⟩
  | .hbm, ⟨44, _⟩ => ⟨S32x262144, .f32⟩
  | .hbm, ⟨45, _⟩ => ⟨S32x262144x1, .f32⟩
  | .hbm, ⟨46, _⟩ => ⟨S32x4096x128, .f32⟩
  | .hbm, ⟨47, _⟩ => ⟨S32x4096x128, .f32⟩
  | .hbm, ⟨48, _⟩ => ⟨S32x262144x2, .f32⟩
  | .hbm, ⟨49, _⟩ => ⟨S32x4096x128, .f32⟩
  | .hbm, ⟨50, _⟩ => ⟨S32x1x1, .f32⟩
  | .hbm, ⟨51, _⟩ => ⟨S32x1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | _, _ => ⟨S32x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_c_1 : Ref sig .tc := ⟨.hbm, 23, rfl⟩
abbrev main_call1_c_2 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_c_3 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19_0 : Ref sig .tc := ⟨.hbm, 50, rfl⟩
abbrev main_v19_1 : Ref sig .tc := ⟨.hbm, 51, rfl⟩
abbrev main_cst_1 : Ref sig .tc := ⟨.hbm, 52, rfl⟩
abbrev main_v20 : Ref sig .tc := ⟨.hbm, 53, rfl⟩
abbrev main_cst_2 : Ref sig .tc := ⟨.hbm, 54, rfl⟩
abbrev main_v21 : Ref sig .tc := ⟨.hbm, 55, rfl⟩
abbrev main_cst_3 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_v24 : Ref sig .tc := ⟨.hbm, 60, rfl⟩
abbrev main_cst_5 : Ref sig .tc := ⟨.hbm, 61, rfl⟩
abbrev main_v25 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S32x262144_S32x2x131072 : S32x262144.ShapeCasts S32x2x131072
  transposes_S32x2x131072_S32x131072x2_0_2_1 : S32x2x131072.Transposes [0, 2, 1] S32x131072x2
  slices_S32x262144x4_S32x262144x1_0_0_2 : S32x262144x4.Slices ![0, 0, 2] S32x262144x1
  shapeCasts_S32x262144x1_S32x262144 : S32x262144x1.ShapeCasts S32x262144
  bcast_S_S32x262144 : S_.BroadcastsInDim S32x262144 (![] : Fin 0 → Fin S32x262144.rank)
  bcast_S32x262144_S32x262144x1_0_1 : S32x262144.BroadcastsInDim S32x262144x1 (![0, 1] : Fin 2 → Fin S32x262144x1.rank)
  bcast_S_S32x262144x1 : S_.BroadcastsInDim S32x262144x1 (![] : Fin 0 → Fin S32x262144x1.rank)
  bcast_S1_S1x1x1_2 : S1.BroadcastsInDim S1x1x1 (![2] : Fin 1 → Fin S1x1x1.rank)
  bcast_S1x1x1_S32x262144x1_0_1_2 : S1x1x1.BroadcastsInDim S32x262144x1 (![0, 1, 2] : Fin 3 → Fin S32x262144x1.rank)
  reducesTo_S32x262144x1_S32x262144_d2 : S32x262144x1.ReducesTo [2] S32x262144
  h_S_ : 0 < S_.numel
  bcast_S32x262144_S32x262144x2_0_1 : S32x262144.BroadcastsInDim S32x262144x2 (![0, 1] : Fin 2 → Fin S32x262144x2.rank)
  bcast_S_S32x262144x2 : S_.BroadcastsInDim S32x262144x2 (![] : Fin 0 → Fin S32x262144x2.rank)
  slices_S32x262144x4_S32x262144x2_0_0_0 : S32x262144x4.Slices ![0, 0, 0] S32x262144x2
  slices_S32x262144x4_S32x262144x1_0_0_3 : S32x262144x4.Slices ![0, 0, 3] S32x262144x1
  shapeCasts_S32x262144x2_S32x4096x128 : S32x262144x2.ShapeCasts S32x4096x128
  bcast_S32x262144x1_S32x262144x2_0_1_2 : S32x262144x1.BroadcastsInDim S32x262144x2 (![0, 1, 2] : Fin 3 → Fin S32x262144x2.rank)
  inb_S1x1x1_S1x1x1_0_0_0 : ∀ a, (![0, 0, 0] : Fin 3 → Nat) a + S1x1x1.size a ≤ S1x1x1.size a
  h_S1x1x1 : 0 < S1x1x1.numel
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S1x2048x128 : S1x2048x128.ShapeCasts S1x2048x128
  reduces_S1x2048x128_S1x2048 : S1x2048x128.Reduces [2] S1x2048
  shapeCasts_S1x2048_S1x2048x1 : S1x2048.ShapeCasts S1x2048x1
  reduces_S1x2048x1_S1x1 : S1x2048x1.Reduces [1] S1x1
  shapeCasts_S1x1_S1x1x1 : S1x1.ShapeCasts S1x1x1
  shapeCasts_S1x1x1_S1x1x1 : S1x1x1.ShapeCasts S1x1x1
  reducesTo_S32x1x1_S_d0_1_2 : S32x1x1.ReducesTo [0, 1, 2] S_
  gather_S32x131072x2_S32x262144x1_S32x262144x2_2_1_0_0_1_2_112_wf : GatherDims.WF S32x131072x2 S32x262144x1 S32x262144x2 [2] [1] [0] [1] [0] 2 ![1, 1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x4096x128.size a
  hwx0_0 : ∀ i : grid0.Coords, EltTy.bits .f32 = 32 ∨ (Rect.block (s := S32x4096x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x4096x128.size a
  hwx0_1 : ∀ i : grid0.Coords, EltTy.bits .f32 = 32 ∨ (Rect.block (s := S32x4096x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S32x4096x128.size a
  hwx0_2 : ∀ i : grid0.Coords, EltTy.bits .f32 = 32 ∨ (Rect.block (s := S32x4096x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S32x1x1.size a
  hwx0_3 : ∀ i : grid0.Coords, EltTy.bits .f32 = 32 ∨ (Rect.block (s := S32x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)

variable [Facts₀]

def gather_S32x131072x2_S32x262144x1_S32x262144x2_2_1_0_0_1_2_112 : GatherDims S32x131072x2 S32x262144x1 S32x262144x2 where
  offsetDims := [2]
  collapsedSliceDims := [1]
  operandBatchingDims := [0]
  startIndicesBatchingDims := [0]
  startIndexMap := [1]
  indexVectorDim := 2
  sliceSizes := ![1, 1, 2]
  wf := gather_S32x131072x2_S32x262144x1_S32x262144x2_2_1_0_0_1_2_112_wf

abbrev win0_0 : Pipeline.Window sig grid0 :=
  Pipeline.Window.ofSpec (Memref.whole main_v15) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x262144 : Shape := ⟨2, ![32, 262144]⟩
abbrev S32x262144x4 : Shape := ⟨3, ![32, 262144, 4]⟩
abbrev S32x2x131072 : Shape := ⟨3, ![32, 2, 131072]⟩
abbrev S32x262144x2 : Shape := ⟨3, ![32, 262144, 2]⟩
abbrev S32x262144x1 : Shape := ⟨3, ![32, 262144, 1]⟩
abbrev S_ : Shape := ⟨0, ![]⟩
abbrev S32x131072x2 : Shape := ⟨3, ![32, 131072, 2]⟩
abbrev S1 : Shape := ⟨1, ![1]⟩
abbrev S1x1x1 : Shape := ⟨3, ![1, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S32x262144, .f32⟩
  | .hbm, ⟨1, _⟩ => ⟨S32x262144x4, .f32⟩
  | .hbm, ⟨2, _⟩ => ⟨S32x2x131072, .f32⟩
  | .hbm, ⟨3, _⟩ => ⟨S32x262144x2, .f32⟩
  | .hbm, ⟨4, _⟩ => ⟨S32x262144x1, .f32⟩
  | .hbm, ⟨5, _⟩ => ⟨S32x262144, .f32⟩
  | .hbm, ⟨6, _⟩ => ⟨S32x262144, .i32⟩
  | .hbm, ⟨7, _⟩ => ⟨S32x262144x1, .f32⟩
  | .hbm, ⟨8, _⟩ => ⟨S32x262144, .f32⟩
  | .hbm, ⟨9, _⟩ => ⟨S_, .f32⟩
  | .hbm, ⟨10, _⟩ => ⟨S32x262144, .f32⟩
  | .hbm, ⟨11, _⟩ => ⟨S32x262144, .i1⟩
  | .hbm, ⟨12, _⟩ => ⟨S32x131072x2, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S32x262144, .i32⟩
  | .hbm, ⟨17, _⟩ => ⟨S32x262144, .i32⟩
  | .hbm, ⟨18, _⟩ => ⟨S_, .i32⟩
  | .hbm, ⟨19, _⟩ => ⟨S32x262144, .i32⟩
  | .hbm, ⟨20, _⟩ => ⟨S32x262144, .i32⟩
  | .hbm, ⟨21, _⟩ => ⟨S32x262144x1, .i32⟩
  | .hbm, ⟨22, _⟩ => ⟨S_, .i32⟩
  | .hbm, ⟨23, _⟩ => ⟨S32x262144x1, .i32⟩
  | .hbm, ⟨24, _⟩ => ⟨S32x262144x1, .i1⟩
  | .hbm, ⟨25, _⟩ => ⟨S_, .i32⟩
  | .hbm, ⟨26, _⟩ => ⟨S32x262144x1, .i32⟩
  | .hbm, ⟨27, _⟩ => ⟨S32x262144x1, .i32⟩
  | .hbm, ⟨28, _⟩ => ⟨S32x262144x1, .i32⟩
  | .hbm, ⟨29, _⟩ => ⟨S1, .i32⟩
  | .hbm, ⟨30, _⟩ => ⟨S_, .i32⟩
  | .hbm, ⟨31, _⟩ => ⟨S32x262144x1, .i32⟩
  | .hbm, ⟨32, _⟩ => ⟨S32x262144x1, .i1⟩
  | .hbm, ⟨33, _⟩ => ⟨S1x1x1, .i32⟩
  | .hbm, ⟨34, _⟩ => ⟨S32x262144x1, .i32⟩
  | .hbm, ⟨35, _⟩ => ⟨S32x262144x1, .i1⟩
  | .hbm, ⟨36, _⟩ => ⟨S32x262144x1, .i1⟩
  | .hbm, ⟨37, _⟩ => ⟨S_, .i1⟩
  | .hbm, ⟨38, _⟩ => ⟨S32x262144, .i1⟩
  | .hbm, ⟨39, _⟩ => ⟨S32x262144x2, .f32⟩
  | .hbm, ⟨40, _⟩ => ⟨S32x262144x2, .i1⟩
  | .hbm, ⟨41, _⟩ => ⟨S_, .f32⟩
  | .hbm, ⟨42, _⟩ => ⟨S32x262144x2, .f32⟩
  | .hbm, ⟨43, _⟩ => ⟨S32x262144x2, .f32⟩
  | .hbm, ⟨44, _⟩ => ⟨S32x262144x2, .f32⟩
  | .hbm, ⟨45, _⟩ => ⟨S32x262144x2, .f32⟩
  | .hbm, ⟨46, _⟩ => ⟨S_, .f32⟩
  | .hbm, ⟨47, _⟩ => ⟨S32x262144x2, .f32⟩
  | .hbm, ⟨48, _⟩ => ⟨S32x262144x2, .i1⟩
  | .hbm, ⟨49, _⟩ => ⟨S_, .f32⟩
  | .hbm, ⟨50, _⟩ => ⟨S32x262144x2, .f32⟩
  | .hbm, ⟨51, _⟩ => ⟨S32x262144x2, .f32⟩
  | .hbm, ⟨52, _⟩ => ⟨S32x262144x2, .f32⟩
  | .hbm, ⟨53, _⟩ => ⟨S_, .f32⟩
  | .hbm, ⟨54, _⟩ => ⟨S32x262144x2, .f32⟩
  | .hbm, ⟨55, _⟩ => ⟨S32x262144x2, .f32⟩
  | .hbm, ⟨56, _⟩ => ⟨S32x262144x2, .f32⟩
  | .hbm, ⟨57, _⟩ => ⟨S32x262144, .f32⟩
  | .hbm, ⟨58, _⟩ => ⟨S32x262144x1, .f32⟩
  | .hbm, ⟨59, _⟩ => ⟨S32x262144x2, .f32⟩
  | .hbm, ⟨60, _⟩ => ⟨S32x262144x2, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S32x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_v11 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_c_1 : Ref sig .tc := ⟨.hbm, 29, rfl⟩
abbrev main_call1_c_2 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_c_3 : Ref sig .tc := ⟨.hbm, 37, rfl⟩
abbrev main_call1_v11 : Ref sig .tc := ⟨.hbm, 38, rfl⟩
abbrev main_call1_v12 : Ref sig .tc := ⟨.hbm, 39, rfl⟩
abbrev main_call1_v13 : Ref sig .tc := ⟨.hbm, 40, rfl⟩
abbrev main_call1_cst : Ref sig .tc := ⟨.hbm, 41, rfl⟩
abbrev main_call1_v14 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_cst_2 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_cst_3 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_4 : Ref sig .tc := ⟨.hbm, 61, rfl⟩
abbrev main_v27 : Ref sig .tc := ⟨.hbm, 62, rfl⟩
abbrev main_cst_5 : Ref sig .tc := ⟨.hbm, 63, rfl⟩
abbrev main_v28 : Ref sig .tc := ⟨.hbm, 64, rfl⟩
abbrev main_cst_6 : Ref sig .tc := ⟨.hbm, 65, rfl⟩
abbrev main_v29 : Ref sig .tc := ⟨.hbm, 66, rfl⟩
abbrev main_v30 : Ref sig .tc := ⟨.hbm, 67, rfl⟩
abbrev main_cst_7 : Ref sig .tc := ⟨.hbm, 68, rfl⟩
abbrev main_v31 : Ref sig .tc := ⟨.hbm, 69, rfl⟩

abbrev nD : Nat := 1
abbrev τ : Topo := Topo.v7x

variable {F : FTy → Type} [FloatOps F]

class Facts₀ : Prop where
  shapeCasts_S32x262144_S32x2x131072 : S32x262144.ShapeCasts S32x2x131072
  slices_S32x262144x4_S32x262144x2_0_0_0 : S32x262144x4.Slices ![0, 0, 0] S32x262144x2
  slices_S32x262144x4_S32x262144x1_0_0_2 : S32x262144x4.Slices ![0, 0, 2] S32x262144x1
  shapeCasts_S32x262144x1_S32x262144 : S32x262144x1.ShapeCasts S32x262144
  slices_S32x262144x4_S32x262144x1_0_0_3 : S32x262144x4.Slices ![0, 0, 3] S32x262144x1
  bcast_S_S32x262144 : S_.BroadcastsInDim S32x262144 (![] : Fin 0 → Fin S32x262144.rank)
  transposes_S32x2x131072_S32x131072x2_0_2_1 : S32x2x131072.Transposes [0, 2, 1] S32x131072x2
  bcast_S32x262144_S32x262144x1_0_1 : S32x262144.BroadcastsInDim S32x262144x1 (![0, 1] : Fin 2 → Fin S32x262144x1.rank)
  bcast_S_S32x262144x1 : S_.BroadcastsInDim S32x262144x1 (![] : Fin 0 → Fin S32x262144x1.rank)
  bcast_S1_S1x1x1_2 : S1.BroadcastsInDim S1x1x1 (![2] : Fin 1 → Fin S1x1x1.rank)
  bcast_S1x1x1_S32x262144x1_0_1_2 : S1x1x1.BroadcastsInDim S32x262144x1 (![0, 1, 2] : Fin 3 → Fin S32x262144x1.rank)
  reducesTo_S32x262144x1_S32x262144_d2 : S32x262144x1.ReducesTo [2] S32x262144
  h_S_ : 0 < S_.numel
  bcast_S32x262144_S32x262144x2_0_1 : S32x262144.BroadcastsInDim S32x262144x2 (![0, 1] : Fin 2 → Fin S32x262144x2.rank)
  bcast_S_S32x262144x2 : S_.BroadcastsInDim S32x262144x2 (![] : Fin 0 → Fin S32x262144x2.rank)
  bcast_S32x262144x1_S32x262144x2_0_1_2 : S32x262144x1.BroadcastsInDim S32x262144x2 (![0, 1, 2] : Fin 3 → Fin S32x262144x2.rank)
  reducesTo_S32x262144x2_S_d0_1_2 : S32x262144x2.ReducesTo [0, 1, 2] S_
  reducesTo_S32x262144_S_d0_1 : S32x262144.ReducesTo [0, 1] S_
  gather_S32x131072x2_S32x262144x1_S32x262144x2_2_1_0_0_1_2_112_wf : GatherDims.WF S32x131072x2 S32x262144x1 S32x262144x2 [2] [1] [0] [1] [0] 2 ![1, 1, 2]

variable [Facts₀]

def gather_S32x131072x2_S32x262144x1_S32x262144x2_2_1_0_0_1_2_112 : GatherDims S32x131072x2 S32x262144x1 S32x262144x2 where
  offsetDims := [2]
  collapsedSliceDims := [1]
  operandBatchingDims := [0]
  startIndicesBatchingDims := [0]
  startIndexMap := [1]
  indexVectorDim := 2
  sliceSizes := ![1, 1, 2]
  wf := gather_S32x131072x2_S32x262144x1_S32x262144x2_2_1_0_0_1_2_112_wf

class Facts : Prop extends Facts₀ where

variable [Facts]
-- ==== Proof.KernelPieces.lean ====
import proofs.«130656_j46858093200031_2_alg».proof.Proof.Gen.KernelIdeal.Frame
import Idealize.ShloMosaic.Lib.Pipeline.Value
import Idealize.ShloMosaic.Lib.Tactic

noncomputable section

/-!
  What one grid point of the reduction kernel leaves in its two one-entry output blocks, as values.

  The body loads three [1, 2048, 128] blocks x0, x1, x2 and accumulates into two [1, 1, 1] blocks: the first gets
  `old + Σ_rows Σ_lanes per(x0 - x1)·x2` (`k0_pay5`), the second `old + Σ_rows Σ_lanes x2` (`k0_pay1` of `k0_pay6`).
  At a point that starts a batch (case A) `old` is the zero block the body has just stored; at the other points (case B)
  it is what the point before left.
-/

namespace Cert.KernelIdeal.KValue

open Idealize.ShloMosaic Idealize.ShloMosaic.TcCoe Idealize.SL.Sem Cert.KernelIdeal Cert.KernelIdeal.Gen

variable {F : FTy → Type} [FloatOps F]

theorem hz : (![0, 0, 0] : Fin 3 → Nat) = fun _ => 0 := funext fun a => by fin_cases a <;> rfl

/-- Case B, first output: the one covering store writes `old + (the block's masked total)`. -/
theorem out_B_3 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x1x1 .f32) (h5 : a5.IsWhole) (a6 : Memref sig .tc .vmem S1x1x1 .f32) (h6 : a6.IsWhole) (hc : ¬cond0_0 i)
    (x0 x1 x2 : Vec F S1x2048x128 .f32) (xo3 xo4 : Vec F S1x1x1 .f32) :
    out0_B_3 c i a2 h2 a3 h3 a4 h4 a5 h5 a6 h6 hc x0 x1 x2 xo3 xo4 = k0_pay5 x0 x1 x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  rw [View.canon_unit_zero hz]
  simp only [View.readAt_eq_ld, h2.read_unread, h3.read_unread, h4.read_unread, h5.read_unread,
    View.ld_unit_zero (S := S1x2048x128) hz, View.ld_unit_zero (S := S1x1x1) hz]

/-- Case B, second output: `old + (the block's mask total)`. -/
theorem out_B_4 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x1x1 .f32) (h5 : a5.IsWhole) (a6 : Memref sig .tc .vmem S1x1x1 .f32) (h6 : a6.IsWhole) (hc : ¬cond0_0 i)
    (x0 x1 x2 : Vec F S1x2048x128 .f32) (xo3 xo4 : Vec F S1x1x1 .f32) :
    out0_B_4 c i a2 h2 a3 h3 a4 h4 a5 h5 a6 h6 hc x0 x1 x2 xo3 xo4 = k0_pay1 (k0_pay6 x2) xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz]
  simp only [View.readAt_eq_ld, h2.read_unread, h3.read_unread, h4.read_unread, h6.read_unread,
    View.ld_unit_zero (S := S1x2048x128) hz, View.ld_unit_zero (S := S1x1x1) hz]

/-- Case A, first output: the zero block is stored first and read back, so the point leaves `0 + (the block's masked total)`. -/
theorem out_A_3 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x1x1 .f32) (h5 : a5.IsWhole) (a6 : Memref sig .tc .vmem S1x1x1 .f32) (h6 : a6.IsWhole) (hc : cond0_0 i)
    (x0 x1 x2 : Vec F S1x2048x128 .f32) :
    out0_A_3 c i a2 h2 a3 h3 a4 h4 a5 h5 a6 h6 hc x0 x1 x2 = k0_pay5 x0 x1 x2 (k0_pay2 (F := F)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x1x1) hz, View.readCov_unit_zero (S := S1x1x1) _ hz]
  simp only [View.readAt_eq_ld, h2.read_unread, h3.read_unread, h4.read_unread,
    View.ld_unit_zero (S := S1x2048x128) hz, View.ld_unit_zero (S := S1x1x1) hz]

/-- Case A, second output: `0 + (the block's mask total)`. -/
theorem out_A_4 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x2048x128 .f32) (h4 : a4.IsWhole) (a5 : Memref sig .tc .vmem S1x1x1 .f32) (h5 : a5.IsWhole) (a6 : Memref sig .tc .vmem S1x1x1 .f32) (h6 : a6.IsWhole) (hc : cond0_0 i)
    (x0 x1 x2 : Vec F S1x2048x128 .f32) :
    out0_A_4 c i a2 h2 a3 h3 a4 h4 a5 h5 a6 h6 hc x0 x1 x2 = k0_pay1 (k0_pay6 x2) (k0_pay3 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x1) hz, View.readCov_unit_zero (S := S1x1x1) _ hz]
  simp only [View.readAt_eq_ld, h2.read_unread, h3.read_unread, h4.read_unread,
    View.ld_unit_zero (S := S1x2048x128) hz, View.ld_unit_zero (S := S1x1x1) hz]

end Cert.KernelIdeal.KValue

end
-- ==== Proof.KernelBlocks.lean ====
import proofs.«130656_j46858093200031_2_alg».proof.Proof.KernelPieces
import Idealize.ShloMosaic.Lib.ValueIdx

noncomputable section

/-!
  From grid points to the two output arrays.

  The grid is 32 batches × 2 halves, visited in row-major order: point 2b is the first half of batch b (rows 0 … 2047 of the
  [32, 4096, 128] operands), point 2b + 1 the second half (rows 2048 … 4095). Each of the two outputs is a [32, 1, 1] array whose
  entry b is written back once, after point 2b + 1, and holds what the two points of batch b accumulated from zero:
  `(0 + total of the first half) + total of the second half`.
-/

namespace Cert.KernelIdeal.KValue

open Idealize.ShloMosaic Idealize.ShloMosaic.TcCoe Idealize.SL.Sem Idealize.ShloMosaic.ValueIdx Cert.KernelIdeal Cert.KernelIdeal.Gen
open Idealize.ShloMosaic.Pipeline (Dat)

variable {F : FTy → Type} [FloatOps F]
variable (m : (ℓ : Loc nD τ sig) → Buf (Elt F) ℓ)

theorem hN : cfg0.N = 64 := N_0

/-- The first point of batch `b`. -/
def pt0 (b : Fin 32) : Fin cfg0.N := ⟨2 * b.val, by rw [hN]; omega⟩
/-- The second point of batch `b`: the one after which the batch's output entries are written back. -/
def pt1 (b : Fin 32) : Fin cfg0.N := ⟨2 * b.val + 1, by rw [hN]; omega⟩

/-- The printed index maps over the grid: an input block is (batch, half, 0), an output block (batch, 0, 0). -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0
    ∧ win0_2.index t (0 : Fin 3) = t.val / 2 ∧ win0_2.index t (1 : Fin 3) = t.val % 2 ∧ win0_2.index t (2 : Fin 3) = 0
    ∧ win0_3.index t (0 : Fin 3) = t.val / 2 ∧ win0_3.index t (1 : Fin 3) = 0 ∧ win0_3.index t (2 : Fin 3) = 0
    ∧ win0_4.index t (0 : Fin 3) = t.val / 2 ∧ win0_4.index t (1 : Fin 3) = 0 ∧ win0_4.index t (2 : Fin 3) = 0 :=
  (by decide +kernel : ∀ t : Fin grid0.N, _)

/-! ## An input block read at an index -/

theorem blk0_read (A : S32x4096x128.Idx → Elt F .f32) (t : Fin cfg0.N) (y : S1x2048x128.Idx) (i : S32x4096x128.Idx)
    (h0 : (i 0).val = t.val / 2) (h1 : (i 1).val = 2048 * (t.val % 2) + (y 1).val) (h2 : (i 2).val = (y 2).val) :
    ((cfg0.win 0).blk t).view.read (Elt F) A y = A i := by
  rw [View.read_apply]
  refine congrArg A (funext fun a => Fin.ext ?_)
  obtain ⟨e0, e1, e2, -⟩ := idx_facts t
  have hy : (y 0).val < 1 := (y 0).isLt
  match a with
  | ⟨0, _⟩ => show win0_0.index t (0 : Fin 3) * 1 + 1 * (y 0).val = (i 0).val; omega
  | ⟨1, _⟩ => show win0_0.index t (1 : Fin 3) * 2048 + 1 * (y 1).val = (i 1).val; omega
  | ⟨2, _⟩ => show win0_0.index t (2 : Fin 3) * 128 + 1 * (y 2).val = (i 2).val; omega

/-- Operand 0's block at point `t`, entry (0, r, l), is the operand's entry (t / 2, 2048·(t mod 2) + r, l). -/
theorem iblk0_apply (c : Dev nD) (t : Fin cfg0.N) (y : S1x2048x128.Idx) (i : S32x4096x128.Idx)
    (h0 : (i 0).val = t.val / 2) (h1 : (i 1).val = 2048 * (t.val % 2) + (y 1).val) (h2 : (i 2).val = (y 2).val) :
    (iblk m c 0 t : Vec F S1x2048x128 .f32) y = V m c main_v15 i :=
  blk0_read (V m c main_v15) t y i h0 h1 h2

theorem blk1_read (A : S32x4096x128.Idx → Elt F .f32) (t : Fin cfg0.N) (y : S1x2048x128.Idx) (i : S32x4096x128.Idx)
    (h0 : (i 0).val = t.val / 2) (h1 : (i 1).val = 2048 * (t.val % 2) + (y 1).val) (h2 : (i 2).val = (y 2).val) :
    ((cfg0.win 1).blk t).view.read (Elt F) A y = A i := by
  rw [View.read_apply]
  refine congrArg A (funext fun a => Fin.ext ?_)
  obtain ⟨-, -, -, e0, e1, e2, -⟩ := idx_facts t
  have hy : (y 0).val < 1 := (y 0).isLt
  match a with
  | ⟨0, _⟩ => show win0_1.index t (0 : Fin 3) * 1 + 1 * (y 0).val = (i 0).val; omega
  | ⟨1, _⟩ => show win0_1.index t (1 : Fin 3) * 2048 + 1 * (y 1).val = (i 1).val; omega
  | ⟨2, _⟩ => show win0_1.index t (2 : Fin 3) * 128 + 1 * (y 2).val = (i 2).val; omega

/-- Operand 1's block at point `t`, entry (0, r, l), is the operand's entry (t / 2, 2048·(t mod 2) + r, l). -/
theorem iblk1_apply (c : Dev nD) (t : Fin cfg0.N) (y : S1x2048x128.Idx) (i : S32x4096x128.Idx)
    (h0 : (i 0).val = t.val / 2) (h1 : (i 1).val = 2048 * (t.val % 2) + (y 1).val) (h2 : (i 2).val = (y 2).val) :
    (iblk m c 1 t : Vec F S1x2048x128 .f32) y = V m c main_v16 i :=
  blk1_read (V m c main_v16) t y i h0 h1 h2

theorem blk2_read (A : S32x4096x128.Idx → Elt F .f32) (t : Fin cfg0.N) (y : S1x2048x128.Idx) (i : S32x4096x128.Idx)
    (h0 : (i 0).val = t.val / 2) (h1 : (i 1).val = 2048 * (t.val % 2) + (y 1).val) (h2 : (i 2).val = (y 2).val) :
    ((cfg0.win 2).blk t).view.read (Elt F) A y = A i := by
  rw [View.read_apply]
  refine congrArg A (funext fun a => Fin.ext ?_)
  obtain ⟨-, -, -, -, -, -, e0, e1, e2, -⟩ := idx_facts t
  have hy : (y 0).val < 1 := (y 0).isLt
  match a with
  | ⟨0, _⟩ => show win0_2.index t (0 : Fin 3) * 1 + 1 * (y 0).val = (i 0).val; omega
  | ⟨1, _⟩ => show win0_2.index t (1 : Fin 3) * 2048 + 1 * (y 1).val = (i 1).val; omega
  | ⟨2, _⟩ => show win0_2.index t (2 : Fin 3) * 128 + 1 * (y 2).val = (i 2).val; omega

/-- Operand 2's block at point `t`, entry (0, r, l), is the operand's entry (t / 2, 2048·(t mod 2) + r, l). -/
theorem iblk2_apply (c : Dev nD) (t : Fin cfg0.N) (y : S1x2048x128.Idx) (i : S32x4096x128.Idx)
    (h0 : (i 0).val = t.val / 2) (h1 : (i 1).val = 2048 * (t.val % 2) + (y 1).val) (h2 : (i 2).val = (y 2).val) :
    (iblk m c 2 t : Vec F S1x2048x128 .f32) y = V m c main_v18 i :=
  blk2_read (V m c main_v18) t y i h0 h1 h2

/-! ## What the two points of a batch leave -/

theorem outsAt0_congr (c : Dev nD) {n n' : ℕ} (e : n = n') (h : n < cfg0.N) (h' : n' < cfg0.N) :
    outsAt0 m c n h = outsAt0 m c n' h' := by subst e; rfl

/-- Batch `b`'s entry of the first output: zero, plus the first half's masked total, plus the second half's. -/
def lossBlock (c : Dev nD) (b : Fin 32) : Vec F S1x1x1 .f32 :=
  k0_pay5 (iblk m c 0 (pt1 b)) (iblk m c 1 (pt1 b)) (iblk m c 2 (pt1 b))
    (k0_pay5 (iblk m c 0 (pt0 b)) (iblk m c 1 (pt0 b)) (iblk m c 2 (pt0 b)) (k0_pay2 (F := F)))

/-- Batch `b`'s entry of the second output: zero, plus the first half's mask total, plus the second half's. -/
def normBlock (c : Dev nD) (b : Fin 32) : Vec F S1x1x1 .f32 :=
  k0_pay1 (k0_pay6 (iblk m c 2 (pt1 b))) (k0_pay1 (k0_pay6 (iblk m c 2 (pt0 b))) (k0_pay3 (F := F)))

/-- After the second point of batch `b` the two staging buffers hold the batch's two accumulated entries. -/
theorem outs_second (c : Dev nD) (b : Fin 32) :
    outsAt0 m c (pt1 b).val (pt1 b).isLt = (lossBlock m c b, normBlock m c b) := by
  have hB : ¬(pt1 b).val % 2 = 0 := by show ¬(2 * b.val + 1) % 2 = 0; omega
  have hA : (pt0 b).val % 2 = 0 := by show (2 * b.val) % 2 = 0; omega
  rw [outsAt0_B m c (pt1 b) hB,
    outsAt0_congr m c (show (pt1 b).val - 1 = (pt0 b).val from by show 2 * b.val + 1 - 1 = 2 * b.val; omega) _ (pt0 b).isLt,
    outsAt0_A m c (pt0 b) hA]
  dsimp only
  rw [out_B_3, out_B_4, out_A_3, out_A_4]
  rfl

/-! ## The two output arrays -/

theorem idx111 (y : S1x1x1.Idx) : y = ix3 (0 : Fin 1) (0 : Fin 1) (0 : Fin 1) :=
  funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _

/-- Output one's array after the run: entry (b, 0, 0) is batch `b`'s accumulated entry. -/
def lossArr (c : Dev nD) : Vec F S32x1x1 .f32 :=
  fun i => lossBlock m c ⟨(i 0).val, (i 0).isLt⟩ (ix3 (0 : Fin 1) (0 : Fin 1) (0 : Fin 1))

theorem oblk3_read (A : S32x1x1.Idx → Elt F .f32) (b : Fin 32) (y : S1x1x1.Idx) (i : S32x1x1.Idx) (hi : (i 0).val = b.val) :
    ((cfg0.win 3).blk (pt1 b)).view.read (Elt F) A y = A i := by
  rw [View.read_apply]
  refine congrArg A (funext fun a => Fin.ext ?_)
  obtain ⟨-, -, -, -, -, -, -, -, -, e0, e1, e2, -⟩ := idx_facts (pt1 b)
  have ht : (pt1 b).val = 2 * b.val + 1 := rfl
  have hy0 : (y 0).val < 1 := (y 0).isLt
  have hy1 : (y 1).val < 1 := (y 1).isLt
  have hy2 : (y 2).val < 1 := (y 2).isLt
  have hi1 : (i 1).val < 1 := (i 1).isLt
  have hi2 : (i 2).val < 1 := (i 2).isLt
  match a with
  | ⟨0, _⟩ => show win0_3.index (pt1 b) (0 : Fin 3) * 1 + 1 * (y 0).val = (i 0).val; omega
  | ⟨1, _⟩ => show win0_3.index (pt1 b) (1 : Fin 3) * 1 + 1 * (y 1).val = (i 1).val; omega
  | ⟨2, _⟩ => show win0_3.index (pt1 b) (2 : Fin 3) * 1 + 1 * (y 2).val = (i 2).val; omega

/-- What a write-back of output one writes is the block of `lossArr` it covers. -/
theorem flushed3 (c : Dev nD) (t : Fin cfg0.N) (hf : (cfg0.win 3).flush t = true) :
    (dats m 0 c).flushed 3 t = ((cfg0.win 3).blk t).view.read (Elt F) (lossArr m c) := by
  have ht : t.val % 2 = 1 := (flush0_3 t).mp hf
  have hlt : t.val < 64 := lt_of_lt_of_eq t.isLt hN
  obtain ⟨b, rfl⟩ : ∃ b : Fin 32, t = pt1 b :=
    ⟨⟨t.val / 2, by omega⟩, Fin.ext (by show t.val = 2 * (t.val / 2) + 1; omega)⟩
  show (cfg0.win 3).cut (grid0.coords (pt1 b)) ((dats m 0 c).after 3 (pt1 b)) = _
  rw [after0_3, outs_second]
  funext y
  rw [oblk3_read (lossArr m c) b y (ix3 b (0 : Fin 1) (0 : Fin 1)) rfl]
  show lossBlock m c b y = lossBlock m c ⟨b.val, _⟩ (ix3 (0 : Fin 1) (0 : Fin 1) (0 : Fin 1))
  rw [idx111 y]

/-- An index of the array is in point `t`'s block iff each coordinate is in the block's range on its axis. -/
theorem mem_oblk3 (t : Fin cfg0.N) (i : S32x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v19_0).slice (win0_3.rect t)).set ↔ _
  rw [View.set_slice_whole, Rect.mem_set_unit]
  exact Iff.rfl

/-- Every entry of the array is written back: entry (b, 0, 0) after the second point of batch `b`. -/
theorem cover3 (i : S32x1x1.Idx) :
    ∃ t : Fin cfg0.N, (cfg0.win 3).flush t = true ∧ i ∈ ((cfg0.win 3).blk t).view.set := by
  have hi0 : (i 0).val < 32 := (i 0).isLt
  have hi1 : (i 1).val < 1 := (i 1).isLt
  have hi2 : (i 2).val < 1 := (i 2).isLt
  have ht : (pt1 ⟨(i 0).val, hi0⟩).val = 2 * (i 0).val + 1 := rfl
  refine ⟨pt1 ⟨(i 0).val, hi0⟩, (flush0_3 _).mpr (by omega), ?_⟩
  rw [mem_oblk3]
  obtain ⟨-, -, -, -, -, -, -, -, -, e0, e1, e2, -⟩ := idx_facts (pt1 ⟨(i 0).val, hi0⟩)
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1 ≤ (i 1).val ∧ (i 1).val < win0_3.index _ (1 : Fin 3) * 1 + 1; omega
  | ⟨2, _⟩ => show win0_3.index _ (2 : Fin 3) * 1 ≤ (i 2).val ∧ (i 2).val < win0_3.index _ (2 : Fin 3) * 1 + 1; omega

/-- So the array ends holding `lossArr`. -/
theorem final3 (c : Dev nD) : (dats m 0 c).arrAt 3 cfg0.N = lossArr m c :=
  (dats m 0 c).arrAt_eq_of_cover 3 (lossArr m c) (flushed3 m c) cover3

/-- Output two's array after the run: entry (b, 0, 0) is batch `b`'s accumulated entry. -/
def normArr (c : Dev nD) : Vec F S32x1x1 .f32 :=
  fun i => normBlock m c ⟨(i 0).val, (i 0).isLt⟩ (ix3 (0 : Fin 1) (0 : Fin 1) (0 : Fin 1))

theorem oblk4_read (A : S32x1x1.Idx → Elt F .f32) (b : Fin 32) (y : S1x1x1.Idx) (i : S32x1x1.Idx) (hi : (i 0).val = b.val) :
    ((cfg0.win 4).blk (pt1 b)).view.read (Elt F) A y = A i := by
  rw [View.read_apply]
  refine congrArg A (funext fun a => Fin.ext ?_)
  obtain ⟨-, -, -, -, -, -, -, -, -, -, -, -, e0, e1, e2⟩ := idx_facts (pt1 b)
  have ht : (pt1 b).val = 2 * b.val + 1 := rfl
  have hy0 : (y 0).val < 1 := (y 0).isLt
  have hy1 : (y 1).val < 1 := (y 1).isLt
  have hy2 : (y 2).val < 1 := (y 2).isLt
  have hi1 : (i 1).val < 1 := (i 1).isLt
  have hi2 : (i 2).val < 1 := (i 2).isLt
  match a with
  | ⟨0, _⟩ => show win0_4.index (pt1 b) (0 : Fin 3) * 1 + 1 * (y 0).val = (i 0).val; omega
  | ⟨1, _⟩ => show win0_4.index (pt1 b) (1 : Fin 3) * 1 + 1 * (y 1).val = (i 1).val; omega
  | ⟨2, _⟩ => show win0_4.index (pt1 b) (2 : Fin 3) * 1 + 1 * (y 2).val = (i 2).val; omega

/-- What a write-back of output two writes is the block of `normArr` it covers. -/
theorem flushed4 (c : Dev nD) (t : Fin cfg0.N) (hf : (cfg0.win 4).flush t = true) :
    (dats m 0 c).flushed 4 t = ((cfg0.win 4).blk t).view.read (Elt F) (normArr m c) := by
  have ht : t.val % 2 = 1 := (flush0_4 t).mp hf
  have hlt : t.val < 64 := lt_of_lt_of_eq t.isLt hN
  obtain ⟨b, rfl⟩ : ∃ b : Fin 32, t = pt1 b :=
    ⟨⟨t.val / 2, by omega⟩, Fin.ext (by show t.val = 2 * (t.val / 2) + 1; omega)⟩
  show (cfg0.win 4).cut (grid0.coords (pt1 b)) ((dats m 0 c).after 4 (pt1 b)) = _
  rw [after0_4, outs_second]
  funext y
  rw [oblk4_read (normArr m c) b y (ix3 b (0 : Fin 1) (0 : Fin 1)) rfl]
  show normBlock m c b y = normBlock m c ⟨b.val, _⟩ (ix3 (0 : Fin 1) (0 : Fin 1) (0 : Fin 1))
  rw [idx111 y]

/-- An index of the array is in point `t`'s block iff each coordinate is in the block's range on its axis. -/
theorem mem_oblk4 (t : Fin cfg0.N) (i : S32x1x1.Idx) :
    i ∈ ((cfg0.win 4).blk t).view.set ↔ ∀ a : Fin 3, win0_4.index t a * S1x1x1.size a ≤ (i a).val ∧ (i a).val < win0_4.index t a * S1x1x1.size a + S1x1x1.size a := by
  show i ∈ ((View.whole main_v19_1).slice (win0_4.rect t)).set ↔ _
  rw [View.set_slice_whole, Rect.mem_set_unit]
  exact Iff.rfl

/-- Every entry of the array is written back: entry (b, 0, 0) after the second point of batch `b`. -/
theorem cover4 (i : S32x1x1.Idx) :
    ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 1 := (i 2).isLt
  have ht : (pt1 ⟨(i 0).val, hi0⟩).val = 2 * (i 0).val + 1 := rfl
  refine ⟨pt1 ⟨(i 0).val, hi0⟩, (flush0_4 _).mpr (by omega), ?_⟩
  rw [mem_oblk4]
  obtain ⟨-, -, -, -, -, -, -, -, -, -, -, -, e0, e1, e2⟩ := idx_facts (pt1 ⟨(i 0).val, hi0⟩)
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1 ≤ (i 1).val ∧ (i 1).val < win0_4.index _ (1 : Fin 3) * 1 + 1; omega
  | ⟨2, _⟩ => show win0_4.index _ (2 : Fin 3) * 1 ≤ (i 2).val ∧ (i 2).val < win0_4.index _ (2 : Fin 3) * 1 + 1; omega

/-- So the array ends holding `normArr`. -/
theorem final4 (c : Dev nD) : (dats m 0 c).arrAt 4 cfg0.N = normArr m c :=
  (dats m 0 c).arrAt_eq_of_cover 4 (normArr m c) (flushed4 m c) cover4

end Cert.KernelIdeal.KValue

end
-- ==== Proof.Stages.lean ====
/-
  The loss as a composition of a few named array functions, shared by both programs.

  From the input x : f32[32, 262144] and the target y : f32[32, 262144, 4]:
    * `rows x`        — x viewed as [32, 2, 131072] and transposed to [32, 131072, 2]: row k of batch b is (x[b, k], x[b, 131072 + k]);
    * `rowIndex y`    — channel 2 of y converted to an integer and clipped to [0, 131071], as a column [32, 262144, 1];
    * `takeRows`      — the row gather along axis 1 (negative indices wrapped, out-of-range rows filled), giving [32, 262144, 2];
    * `targets y`     — channels 0 and 1 of y;
    * `maskF y`       — 1 where channel 3 of y equals 1, else 0, as f32[32, 262144]; `maskBoth y` repeats it on both channels;
    * `smoothL1 g r`  — entrywise: with d = g - r, (0.5·d)·d where |d| < 1 and |d| - 0.5 elsewhere;
    * `lossValue x y` — (0 + Σ smoothL1·mask) / max(1, 0 + Σ mask) · 1, the scalar both programs return.
-/
import proofs.«130656_j46858093200031_2_alg».proof.Proof.Gen.ReferenceIdeal

noncomputable section

namespace Cert.MaskedLoss

open Idealize.ShloMosaic Cert.ReferenceIdeal Cert.ReferenceIdeal.Facts₀ Cert.ReferenceIdeal.Facts

variable {F : FTy → Type} [FloatOps F]

/-- x as rows of two channels: [32, 262144] → [32, 2, 131072] → [32, 131072, 2]. -/
def rows (x : (⟨S32x262144, .f32⟩ : BufTy).Contents (Elt F)) : (⟨S32x131072x2, .f32⟩ : BufTy).Contents (Elt F) :=
  transpose S32x131072x2 [0, 2, 1] (shapeCast S32x2x131072 x shapeCasts_S32x262144_S32x2x131072) transposes_S32x2x131072_S32x131072x2_0_2_1

/-- Channel 2 of y as an integer, clipped to [0, 131071], laid as a column. -/
def rowIndex (y : (⟨S32x262144x4, .f32⟩ : BufTy).Contents (Elt F)) : (⟨S32x262144x1, .i32⟩ : BufTy).Contents (Elt F) :=
  broadcastInDim S32x262144x1 ![0, 1] bcast_S32x262144_S32x262144x1_0_1
    (minsi (broadcastInDim S32x262144 ![] bcast_S_S32x262144 (id (constantI S_ 32 131071#32)))
      (maxsi (broadcastInDim S32x262144 ![] bcast_S_S32x262144 (id (constantI S_ 32 0#32)))
        (fptosi 32 (shapeCast S32x262144 (extractStridedSlice S32x262144x1 ![0, 0, 2] y slices_S32x262144x4_S32x262144x1_0_0_2) shapeCasts_S32x262144x1_S32x262144))))

/-- A negative row index counts from the end. -/
def wrapIndex (ix : (⟨S32x262144x1, .i32⟩ : BufTy).Contents (Elt F)) : (⟨S32x262144x1, .i32⟩ : BufTy).Contents (Elt F) :=
  select (cmpi .slt ix (broadcastInDim S32x262144x1 ![] bcast_S_S32x262144x1 (constantI S_ 32 0#32)))
    (addi ix (broadcastInDim S32x262144x1 ![] bcast_S_S32x262144x1 (constantI S_ 32 131072#32))) ix

/-- The row gather along axis 1: entry (b, a, c) is `tab[b, ix[b, a], c]`, a row outside [0, 131071] filled with the fill word. -/
def takeRows (tab : (⟨S32x131072x2, .f32⟩ : BufTy).Contents (Elt F)) (ix : (⟨S32x262144x1, .i32⟩ : BufTy).Contents (Elt F)) :
    (⟨S32x262144x2, .f32⟩ : BufTy).Contents (Elt F) :=
  select
    (broadcastInDim S32x262144x2 ![0, 1] bcast_S32x262144_S32x262144x2_0_1
      (Host.reduce IntOp.andi
        (andi (cmpi .sge (wrapIndex (F := F) ix) (broadcastInDim S32x262144x1 ![] bcast_S_S32x262144x1 (constantI S_ 32 0#32)))
          (cmpi .sle (wrapIndex (F := F) ix) (broadcastInDim S32x262144x1 ![0, 1, 2] bcast_S1x1x1_S32x262144x1_0_1_2
            (broadcastInDim S1x1x1 ![2] bcast_S1_S1x1x1_2 (constantI S1 32 131071#32)))))
        (constantI S_ 1 1#1) reducesTo_S32x262144x1_S32x262144_d2 h_S_))
    (Host.gather gather_S32x131072x2_S32x262144x1_S32x262144x2_2_1_0_0_1_2_112 tab (wrapIndex (F := F) ix))
    (broadcastInDim S32x262144x2 ![] bcast_S_S32x262144x2 (constant S_ .f32 0x7FC00000#32))

/-- The gathered rows: entry (b, a, c) is x's row `rowIndex y [b, a]`, channel c. -/
def gathered (x : (⟨S32x262144, .f32⟩ : BufTy).Contents (Elt F)) (y : (⟨S32x262144x4, .f32⟩ : BufTy).Contents (Elt F)) :
    (⟨S32x262144x2, .f32⟩ : BufTy).Contents (Elt F) :=
  takeRows (rows x) (rowIndex y)

/-- Channels 0 and 1 of y. -/
def targets (y : (⟨S32x262144x4, .f32⟩ : BufTy).Contents (Elt F)) : (⟨S32x262144x2, .f32⟩ : BufTy).Contents (Elt F) :=
  extractStridedSlice S32x262144x2 ![0, 0, 0] y slices_S32x262144x4_S32x262144x2_0_0_0

/-- Where channel 3 of y equals 1. -/
def maskBits (y : (⟨S32x262144x4, .f32⟩ : BufTy).Contents (Elt F)) : (⟨S32x262144, .i1⟩ : BufTy).Contents (Elt F) :=
  cmpf .oeq (shapeCast S32x262144 (extractStridedSlice S32x262144x1 ![0, 0, 3] y slices_S32x262144x4_S32x262144x1_0_0_3) shapeCasts_S32x262144x1_S32x262144)
    (broadcastInDim S32x262144 ![] bcast_S_S32x262144 (constant S_ .f32 0x3F800000#32))

/-- The mask as numbers: 1 where channel 3 of y equals 1, else 0. -/
def maskF (y : (⟨S32x262144x4, .f32⟩ : BufTy).Contents (Elt F)) : (⟨S32x262144, .f32⟩ : BufTy).Contents (Elt F) :=
  uitofp .f32 (maskBits y)

/-- The mask repeated on both channels. -/
def maskBoth (y : (⟨S32x262144x4, .f32⟩ : BufTy).Contents (Elt F)) : (⟨S32x262144x2, .f32⟩ : BufTy).Contents (Elt F) :=
  broadcastInDim S32x262144x2 ![0, 1, 2] bcast_S32x262144x1_S32x262144x2_0_1_2
    (broadcastInDim S32x262144x1 ![0, 1] bcast_S32x262144_S32x262144x1_0_1 (maskF y))

/-- Entrywise, with d = g - r: (0.5·d)·d where |d| < 1, and |d| - 0.5 elsewhere. -/
def smoothL1 (g r : (⟨S32x262144x2, .f32⟩ : BufTy).Contents (Elt F)) : (⟨S32x262144x2, .f32⟩ : BufTy).Contents (Elt F) :=
  select
    (cmpf .olt (Host.absf (subf g r)) (broadcastInDim S32x262144x2 ![] bcast_S_S32x262144x2 (constant S_ .f32 0x3F800000#32)))
    (mulf (mulf (broadcastInDim S32x262144x2 ![] bcast_S_S32x262144x2 (constant S_ .f32 0x3F000000#32)) (subf g r)) (subf g r))
    (subf (Host.absf (subf g r)) (broadcastInDim S32x262144x2 ![] bcast_S_S32x262144x2 (constant S_ .f32 0x3F000000#32)))

/-- The scalar both programs return from a numerator total and a mask count: (num / max(1, cnt)) · 1. -/
def ratio (num cnt : (⟨S_, .f32⟩ : BufTy).Contents (Elt F)) : (⟨S_, .f32⟩ : BufTy).Contents (Elt F) :=
  mulf (Host.divf num (maximumf (constant S_ .f32 0x3F800000#32) cnt)) (constant S_ .f32 0x3F800000#32)

/-- The loss: the masked smooth-L1 total over every (batch, anchor, channel), over max(1, the number of masked anchors). -/
def lossValue (x : (⟨S32x262144, .f32⟩ : BufTy).Contents (Elt F)) (y : (⟨S32x262144x4, .f32⟩ : BufTy).Contents (Elt F)) :
    (⟨S_, .f32⟩ : BufTy).Contents (Elt F) :=
  ratio
    (Host.reduceAdd (mulf (smoothL1 (gathered x y) (targets y)) (maskBoth y)) (constant S_ .f32 0x00000000#32) reducesTo_S32x262144x2_S_d0_1_2 h_S_)
    (Host.reduceAdd (maskF y) (constant S_ .f32 0x00000000#32) reducesTo_S32x262144_S_d0_1 h_S_)

end Cert.MaskedLoss

end
-- ==== Proof.KernelRun.lean ====
import proofs.«130656_j46858093200031_2_alg».proof.Proof.KernelBlocks
import proofs.«130656_j46858093200031_2_alg».proof.Proof.Stages
import Idealize.ShloMosaic.Lib.StableHlo.Run

noncomputable section

/-!
  The kernel program's run, read: after the region its eleven host lines total each of the two [32, 1, 1] output arrays from
  zero, halve the second total (every masked anchor was counted on both channels), and return
  `(total of the first / max(1, half the total of the second)) · 1`.
-/

namespace Cert.KernelIdeal.KValue

open Idealize.ShloMosaic Idealize.ShloMosaic.TcCoe Idealize.SL.Sem Idealize.ShloMosaic.ValueIdx Cert.KernelIdeal Cert.KernelIdeal.Gen
open Idealize.ShloMosaic.Pipeline (Dat)
open Idealize.ShloMosaic.StableHlo

variable {F : FTy → Type} [FloatOps F]
variable (m : (ℓ : Loc nD τ sig) → Buf (Elt F) ℓ) (ρ : Dev nD → PrngReg)

/-- The returned scalar as a function of the two output arrays. -/
def tailValue (L N : Vec F S32x1x1 .f32) : (⟨S_, .f32⟩ : BufTy).Contents (Elt F) :=
  Cert.MaskedLoss.ratio
    (Host.reduceAdd L (constant S_ .f32 0x00000000#32) reducesTo_S32x1x1_S_d0_1_2 h_S_)
    (mulf (Host.reduceAdd N (constant S_ .f32 0x00000000#32) reducesTo_S32x1x1_S_d0_1_2 h_S_) (constant S_ .f32 0x3F000000#32))

set_option maxHeartbeats 2000000 in
/-- The lines after the region compute `tailValue` of the two arrays the region leaves. -/
theorem tail_eq (c : Dev nD) :
    Pipeline.afterTail₀ cfgs (dats m) 0 (V0 m) [hostOps1] c main_v25
      = tailValue ((dats m 0 c).arrAt 3 cfg0.N) ((dats m 0 c).arrAt 4 cfg0.N) := by
  unfold Pipeline.afterTail₀
  show StableHlo.after hostOps1 _ (Proc.devRef .tc main_v25) = _
  after_results_simp
  have e3 : Pipeline.withArrays (cfgs 0).spec c (V0 m c) (fun w => (dats m 0 c).arrAt w (cfgs 0).N) (Proc.devRef .tc main_v19_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v19_1)
      = (dats m 0 c).arrAt 4 cfg0.N := Pipeline.withArrays_arr spec0 launch0.win.arr_inj c _ _ 4
  rw [e3, e4]
  rfl

/-- Every weakly fair execution of the kernel program terminates with its result at `tailValue` of the two accumulated
    arrays, and its arguments unchanged. -/
theorem run : θ_run defs (onTc (τ := τ) (main (F := F))) ⟨m, fun _ => 0, ρ⟩ fun r => ∀ c : Dev nD,
      r.2.mem ((c.tc : Thread nD τ).loc main_v25) = tailValue (lossArr m c) (normArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v25 (Pipeline.mem_restRefs_of main_v25 (by decide) (by decide))).trans
        ((tail_eq m c).trans (by rw [final3, final4])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KValue

end
-- ==== Proof.EntryLoss.lean ====
/-
  The loss of one entry, as a function of two extended reals: with d = a - b,
  (0.5·d)·d where |d| < 1, and |d| - 0.5 elsewhere (the smooth-L1 of the difference, the two constants
  the binary32 words of 1 and 0.5). Both programs apply it entrywise.
-/
import Idealize.ShloMosaic.PureOps.Ideal

noncomputable section

namespace Cert.MaskedLoss

open Idealize.ShloMosaic

/-- The smooth-L1 of `a - b` on the extended reals. -/
def entryLoss (a b : Ideal .f32) : Ideal .f32 :=
  Scalar.select (FloatOps.cmpf .olt (FloatOps.absf (FloatOps.subf a b)) (Scalar.ofBits .f32 0x3F800000#32))
    (FloatOps.mulf (FloatOps.mulf (Scalar.ofBits .f32 0x3F000000#32) (FloatOps.subf a b)) (FloatOps.subf a b))
    (FloatOps.subf (FloatOps.absf (FloatOps.subf a b)) (Scalar.ofBits .f32 0x3F000000#32))

end Cert.MaskedLoss

end
-- ==== Proof.KernelPayload.lean ====
import proofs.«130656_j46858093200031_2_alg».proof.Proof.Gen.KernelIdeal.Skeleton
import proofs.«130656_j46858093200031_2_alg».proof.Proof.EntryLoss
import Idealize.ShloMosaic.PureOps.Ideal.Laws
import Idealize.ShloMosaic.Lib.ValueIdx
import Idealize.ShloMosaic.Lib.Pipeline.Value

/-!
# The kernel body's values over the extended reals, read as sums

One step of the kernel body reads three `[1, 2048, 128]` blocks `x0`, `x1`, `x2` and two `[1, 1, 1]` running totals.
Over the extended reals, with no rounding:

* the value it writes to the first running total is the old total plus the sum, over the 2048 rows and 128 lanes of
  the block, of the entry loss of `(x0, x1)` times the weight `x2` (`pay5_apply`);
* the value it writes to the second running total is the old total plus the sum of the weights `x2` over the block
  (`pay1_pay6_apply`);
* the two values it starts the running totals from are `0` (`pay2_apply`, `pay3_apply`).

Both totals are computed in two stages — first along the lanes of each row, then, after the row totals `[1, 2048]` are
re-laid as a column `[1, 2048, 1]`, along the rows — and `rows_then_lanes_apply` reads the two stages as one double sum.
-/

noncomputable section

open scoped BigOperators

open Idealize.ShloMosaic Idealize.ShloMosaic.ValueIdx Cert.KernelIdeal Cert.KernelIdeal.Gen

namespace Cert.KernelIdeal.Payload

/-- A `[1, 2048, 128]` array `P` summed along its lanes (giving `[1, 2048]`), re-laid as a column `[1, 2048, 1]`, summed
    along its rows (giving `[1, 1]`) and re-laid as `[1, 1, 1]` is, at its one index, the double sum of `P` over rows and
    lanes. -/
theorem rows_then_lanes_apply (P : FVec Ideal S1x2048x128 .f32)
    (h1 : S1x2048x128.Reduces [2] S1x2048) (h2 : S1x2048.ShapeCasts S1x2048x1)
    (h3 : S1x2048x1.Reduces [1] S1x1) (h4 : S1x1.ShapeCasts S1x1x1)
    (hφ : FKind.Formats .f32) (hacc : (0x00000000#32 : BitVec 32) = FKind.add.neutral .f32 hφ)
    (k : S1x1x1.Idx) :
    shapeCast S1x1x1 (multiReduction (F := Ideal) .add [1] S1x1
        (shapeCast S1x2048x1 (multiReduction (F := Ideal) .add [2] S1x2048 P 0x00000000#32 h1 hφ hacc) h2)
        0x00000000#32 h3 hφ hacc) h4 k
      = ∑ r : Fin 2048, ∑ l : Fin 128, P (ix3 (0 : Fin 1) r l) := by
  obtain ⟨a, b, c, rfl⟩ : ∃ (a b c : Fin 1), k = ix3 a b c := ⟨k 0, k 1, k 2, eq_ix3 k⟩
  -- the last re-laying: the one entry of [1, 1, 1] is the one entry of [1, 1]
  refine (shapeCast_apply _ h4 (ix3 a b c) (ix2 (0 : Fin 1) (0 : Fin 1)) (by
    have := a.isLt; have := b.isLt; have := c.isLt
    rw [Shape.rowMajor_val_two, Shape.rowMajor_val_three]
    show 0 * 1 + 0 = (a.val * 1 + b.val) * 1 + c.val
    omega)).trans ?_
  -- the sum along the rows
  refine (Ideal.multiReduction_add_single _ 0x00000000#32 h3 hφ hacc (ix2 (0 : Fin 1) (0 : Fin 1))).trans ?_
  show ∑ r : Fin 2048, shapeCast S1x2048x1 _ h2 (h3.lift (ix2 (0 : Fin 1) (0 : Fin 1)) r) = _
  refine Finset.sum_congr rfl fun r _ => ?_
  have hl : h3.lift (ix2 (0 : Fin 1) (0 : Fin 1)) r = ix3 (0 : Fin 1) r (0 : Fin 1) := by
    funext d
    match d with
    | ⟨0, _⟩ => rfl
    | ⟨1, _⟩ => rfl
    | ⟨2, _⟩ => rfl
  rw [hl]
  -- the column entry (0, r, 0) is the row total (0, r)
  refine (shapeCast_apply _ h2 (ix3 (0 : Fin 1) r (0 : Fin 1)) (ix2 (0 : Fin 1) r) (by
    rw [Shape.rowMajor_val_two, Shape.rowMajor_val_three]
    show 0 * 2048 + r.val = (0 * 2048 + r.val) * 1 + 0
    omega)).trans ?_
  -- the sum along the lanes of row r
  refine (Ideal.multiReduction_add_single P 0x00000000#32 h1 hφ hacc (ix2 (0 : Fin 1) r)).trans ?_
  show ∑ l : Fin 128, P (h1.lift (ix2 (0 : Fin 1) r) l) = _
  refine Finset.sum_congr rfl fun l _ => congrArg P ?_
  funext d
  match d with
  | ⟨0, _⟩ => rfl
  | ⟨1, _⟩ => rfl
  | ⟨2, _⟩ => rfl

/-- The value written to the first running total: the old total plus the sum over the block of the entry loss of
    `(x0, x1)` times the weight `x2`. -/
theorem pay5_apply (x0 x1 x2 : Vec Ideal S1x2048x128 .f32) (acc : Vec Ideal S1x1x1 .f32) (k : S1x1x1.Idx) :
    k0_pay5 (F := Ideal) x0 x1 x2 acc k
      = acc k + ∑ r : Fin 2048, ∑ l : Fin 128,
          Cert.MaskedLoss.entryLoss (x0 (ix3 (0 : Fin 1) r l)) (x1 (ix3 (0 : Fin 1) r l)) * x2 (ix3 (0 : Fin 1) r l) := by
  unfold k0_pay5 k0_pay4
  simp only [shapeCast_self]
  show acc k + _ = acc k + _
  congr 1
  refine (rows_then_lanes_apply _ _ _ _ _ _ _ k).trans ?_
  refine Finset.sum_congr rfl fun r _ => Finset.sum_congr rfl fun l _ => ?_
  rfl

/-- The value written to the second running total: the old total plus the sum of the weights `x2` over the block. -/
theorem pay1_pay6_apply (x2 : Vec Ideal S1x2048x128 .f32) (acc : Vec Ideal S1x1x1 .f32) (k : S1x1x1.Idx) :
    k0_pay1 (F := Ideal) (k0_pay6 x2) acc k = acc k + ∑ r : Fin 2048, ∑ l : Fin 128, x2 (ix3 (0 : Fin 1) r l) := by
  unfold k0_pay1 k0_pay6 k0_pay4
  simp only [shapeCast_self]
  show acc k + _ = acc k + _
  congr 1
  exact rows_then_lanes_apply _ _ _ _ _ _ _ k

/-- The value the first running total starts from is `0`: the binary32 zero word, everywhere. -/
theorem pay2_apply (k : S1x1x1.Idx) : k0_pay2 (F := Ideal) k = 0 := by
  show Ideal.ofBits .f32 0x00000000#32 = 0
  exact Ideal.ofBits_zero_f32

/-- The value the second running total starts from is `0`: the binary32 zero word, everywhere. -/
theorem pay3_apply (k : S1x1x1.Idx) : k0_pay3 (F := Ideal) k = 0 := by
  show Ideal.ofBits .f32 0x00000000#32 = 0
  exact Ideal.ofBits_zero_f32

end Cert.KernelIdeal.Payload

end
-- ==== Proof.LibRowBlockTotals.lean ====
import Idealize.ShloMosaic.PureOps.Ideal
import Idealize.ShloMosaic.PureOps.Ideal.Laws
import Idealize.ShloMosaic.Lib.ValueIdx

/-!
# Totals over a three-axis array: by coordinates, by blocks of rows, and with a doubled trailing axis

General facts about finite sums indexed by the index set of a rank-3 shape.

* A sum over the index set of a rank-3 shape is the triple sum over its three coordinates (`sum_idx3`), the rank-3
  companion of the rank-2 statement.
* A sum over 4096 rows is the sum over the first 2048 rows plus the sum over the last 2048 rows (`sum_two_halves`),
  and so a total over a `[32, 4096, 128]` array is, batch by batch, the total of its two blocks of 2048 consecutive
  rows (`sum_row_blocks`).
* The binary32 words `0x3F000000` and `0x3F800000` denote the reals `1/2` and `1` (`ofBits_half`, `ofBits_one`).
* The inclusion of the reals in the extended reals commutes with finite sums (`coe_sum`); hence counting every entry
  of a real-valued `[32, 262144]` array once per channel of a trailing axis of length 2 and halving the total gives
  back the plain total (`half_of_doubled_count`).
-/

noncomputable section

open scoped BigOperators

open Idealize.ShloMosaic Idealize.ShloMosaic.ValueIdx

namespace Cert.RowBlockTotals

/-! ## A rank-3 index set is the product of its three coordinate ranges -/

/-- The index set of a rank-3 shape `[n0, n1, n2]` is in bijection with `Fin n0 × Fin n1 × Fin n2`: an index goes to
    its three coordinates, and a triple of coordinates to the index they spell. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the index set of a rank-3 shape is the triple sum over the three coordinates. -/
theorem sum_idx3 {M : Type*} [AddCommMonoid M] {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## 4096 rows as two blocks of 2048 consecutive rows -/

/-- Row `r` of the first block of 2048 rows, as a row of the whole: row `r`. -/
def lowerRow (r : Fin 2048) : Fin 4096 := ⟨r.val, by omega⟩

/-- Row `r` of the second block of 2048 rows, as a row of the whole: row `2048 + r`. -/
def upperRow (r : Fin 2048) : Fin 4096 := ⟨2048 + r.val, by omega⟩

/-- A sum over 4096 rows is the sum over rows `0 … 2047` plus the sum over rows `2048 … 4095`. -/
theorem sum_two_halves {M : Type*} [AddCommMonoid M] (g : Fin 4096 → M) :
    ∑ R : Fin 4096, g R = ∑ r : Fin 2048, g (lowerRow r) + ∑ r : Fin 2048, g (upperRow r) :=
  Fin.sum_univ_add (a := 2048) (b := 2048) g

/-- A total over a `[32, 4096, 128]` array is the sum over the 32 batches of the batch's two block totals: the total
    over its rows `0 … 2047` (all 128 lanes) plus the total over its rows `2048 … 4095` (all 128 lanes). -/
theorem sum_row_blocks {M : Type*} [AddCommMonoid M] (Φ : (⟨3, ![32, 4096, 128]⟩ : Shape).Idx → M) :
    ∑ j, Φ j = ∑ b : Fin 32, ((∑ r : Fin 2048, ∑ l : Fin 128, Φ (ix3 b (lowerRow r) l))
      + ∑ r : Fin 2048, ∑ l : Fin 128, Φ (ix3 b (upperRow r) l)) := by
  rw [sum_idx3]
  refine Finset.sum_congr rfl fun b _ => ?_
  exact sum_two_halves (fun R => ∑ l : Fin 128, Φ (ix3 b R l))

/-! ## Two binary32 words -/

/-- The binary32 word `0x3F000000` (sign 0, biased exponent 126, zero fraction) denotes `2⁻¹ = 1/2`. -/
theorem ofBits_half : Ideal.ofBits .f32 0x3F000000#32 = ((1 / 2 : ℝ) : EReal) := by
  simp [Ideal.ofBits, Ideal.ieee, -EReal.coe_mul]; norm_num

/-- The binary32 word `0x3F800000` (sign 0, biased exponent 127, zero fraction) denotes `2⁰ = 1`. -/
theorem ofBits_one : Ideal.ofBits .f32 0x3F800000#32 = ((1 : ℝ) : EReal) := by
  simp [Ideal.ofBits, Ideal.ieee, -EReal.coe_mul]; norm_num

/-! ## Real-valued arrays inside the extended reals -/

/-- The inclusion of the reals in the extended reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Let `mk` be a `[32, 262144]` array of extended reals all of whose entries are real. Summing `mk (b, p)` over all
    `(b, p, c)` with `c` ranging over a trailing axis of length 2 counts every entry twice; half of that is the plain
    total of `mk`. (The leading `0 +` on both sides is the zero a running total starts from.) -/
theorem half_of_doubled_count (mk : (⟨2, ![32, 262144]⟩ : Shape).Idx → EReal)
    (hmk : ∀ i, ∃ r : ℝ, mk i = (r : EReal)) :
    (0 + ∑ i : (⟨3, ![32, 262144, 2]⟩ : Shape).Idx, mk (ix2 (i 0) (i 1))) * ((1 / 2 : ℝ) : EReal)
      = 0 + ∑ i' : (⟨2, ![32, 262144]⟩ : Shape).Idx, mk i' := by
  choose w hw using hmk
  rw [zero_add, zero_add, sum_idx3, sum_idx2]
  -- a coordinate of an index spelled by its coordinates is that coordinate
  show (∑ a : Fin 32, ∑ b : Fin 262144, ∑ _c : Fin 2, mk (ix2 a b)) * ((1 / 2 : ℝ) : EReal)
    = ∑ a : Fin 32, ∑ b : Fin 262144, mk (ix2 a b)
  simp only [hw, Fin.sum_univ_two, ← EReal.coe_add, coe_sum]
  rw [← EReal.coe_mul]
  refine congrArg _ ?_
  rw [Finset.sum_mul]
  refine Finset.sum_congr rfl fun a _ => ?_
  rw [Finset.sum_mul]
  refine Finset.sum_congr rfl fun b _ => ?_
  ring

end Cert.RowBlockTotals

end
-- ==== Proof.LibLeadingAxisSums.lean ====
/-
  Total sums over array index sets, regrouped by the leading coordinate.

  * A sum over every index of an [n0, n1, n2, n3] array is the sum over the leading coordinate `n` of the sums over the
    indices of the [1, n1, n2, n3] slab at `n` (`sum_by_leading`); a sum over an [n, 1, 1] array is the sum over `n`
    (`sum_unit_tail`).
  * Two runs of eight consecutive indices, each summed from zero, make the sum over sixteen (`sum_two_runs`).
  * A shape cast permutes the entries, so it keeps the total (`sum_shapeCast`).
  * On the extended reals a finite sum of real numbers is the real sum (`coe_sum`), and for real-valued `d` and `w`
    the total of `d · (1 - w)` is the total of `d` minus the total of `d · w` (`sum_mul_one_sub`): this is where
    finiteness is needed, since `⊤ - ⊤` is not `0`.
-/
import Idealize.ShloMosaic.PureOps.Ideal
import Idealize.ShloMosaic.Lib.ValueIdx

noncomputable section

open scoped BigOperators

namespace Cert.LeadingAxisSums

open Idealize.ShloMosaic Idealize.ShloMosaic.ValueIdx

/-- An index of an [n0, n1, n2, n3] array is its leading coordinate and an index of the [1, n1, n2, n3] slab. -/
def leadingEquiv (n0 n1 n2 n3 : Nat) :
    (⟨4, ![n0, n1, n2, n3]⟩ : Shape).Idx ≃ Fin n0 × (⟨4, ![1, n1, n2, n3]⟩ : Shape).Idx where
  toFun i := (i 0, ix4 (0 : Fin 1) (i 1) (i 2) (i 3))
  invFun p := ix4 p.1 (p.2 1) (p.2 2) (p.2 3)
  left_inv i := (eq_ix4 i).symm
  right_inv p := by
    refine Prod.ext rfl ?_
    funext a
    match a with
    | ⟨0, _⟩ => exact Subsingleton.elim (α := Fin 1) _ _
    | ⟨1, _⟩ => rfl
    | ⟨2, _⟩ => rfl
    | ⟨3, _⟩ => rfl

/-- A total over an [n0, n1, n2, n3] array, slab by slab along the leading axis. -/
theorem sum_by_leading {M : Type*} [AddCommMonoid M] {n0 n1 n2 n3 : Nat} (f : (⟨4, ![n0, n1, n2, n3]⟩ : Shape).Idx → M) :
    ∑ i, f i = ∑ n : Fin n0, ∑ y : (⟨4, ![1, n1, n2, n3]⟩ : Shape).Idx, f (ix4 n (y 1) (y 2) (y 3)) := by
  rw [← Equiv.sum_comp (leadingEquiv n0 n1 n2 n3).symm f, Fintype.sum_prod_type]
  rfl

/-- An index of an [n, 1, 1] array is its leading coordinate. -/
def unitTailEquiv (n : Nat) : (⟨3, ![n, 1, 1]⟩ : Shape).Idx ≃ Fin n where
  toFun i := i 0
  invFun p := ix3 p (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- A total over an [n, 1, 1] array is the sum over its leading coordinate. -/
theorem sum_unit_tail {M : Type*} [AddCommMonoid M] {n : Nat} (f : (⟨3, ![n, 1, 1]⟩ : Shape).Idx → M) :
    ∑ i, f i = ∑ p : Fin n, f (ix3 p (0 : Fin 1) (0 : Fin 1)) := by
  rw [← Equiv.sum_comp (unitTailEquiv n).symm f]
  rfl

/-- Two runs of eight consecutive indices, each summed from zero, make the sum over sixteen. -/
theorem sum_two_runs {M : Type*} [AddCommMonoid M] (A : ℕ → M) :
    ∑ p : Fin 2, (0 + ∑ s ∈ Finset.range 8, A (8 * p.val + s)) = ∑ n : Fin 16, A n.val := by
  rw [Fin.sum_univ_two, ← Finset.sum_range (n := 16) A, show (16 : ℕ) = 8 + 8 from rfl, Finset.sum_range_add]
  simp

/-- A shape cast keeps the total of the entries. -/
theorem sum_shapeCast {M : Type} [AddCommMonoid M] {s t : Shape} (x : s.Idx → M) (h : s.ShapeCasts t) :
    ∑ j, shapeCast t x h j = ∑ k, x k := by
  unfold shapeCast
  exact Equiv.sum_comp (Shape.reshapeEquiv h) x

/-- On the extended reals, a finite sum of real numbers is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- For real-valued `d` and `w`, the total of `d · (1 - w)` is the total of `d` minus the total of `d · w`. -/
theorem sum_mul_one_sub {ι : Type*} [Fintype ι] (d w : ι → EReal) (hd : ∀ i, ∃ r : ℝ, d i = r) (hw : ∀ i, ∃ r : ℝ, w i = r) :
    ∑ i, d i * (1 - w i) = ∑ i, d i - ∑ i, d i * w i := by
  choose dr hdr using hd
  choose wr hwr using hw
  have e1 : ∀ i, d i * (1 - w i) = ((dr i * (1 - wr i) : ℝ) : EReal) := fun i => by
    rw [hdr i, hwr i, EReal.coe_mul, EReal.coe_sub, EReal.coe_one]
  have e2 : ∀ i, d i = ((dr i : ℝ) : EReal) := hdr
  have e3 : ∀ i, d i * w i = ((dr i * wr i : ℝ) : EReal) := fun i => by rw [hdr i, hwr i, EReal.coe_mul]
  simp only [e1, e3]
  rw [Finset.sum_congr rfl (fun i _ => e2 i), coe_sum, coe_sum, coe_sum, ← EReal.coe_sub, ← Finset.sum_sub_distrib]
  exact congrArg _ (Finset.sum_congr rfl fun i _ => by ring)

end Cert.LeadingAxisSums

end
-- ==== Proof.KernelTotals.lean ====
import proofs.«130656_j46858093200031_2_alg».proof.Proof.KernelBlocks
import proofs.«130656_j46858093200031_2_alg».proof.Proof.KernelPayload
import proofs.«130656_j46858093200031_2_alg».proof.Proof.LibRowBlockTotals
import proofs.«130656_j46858093200031_2_alg».proof.Proof.LibLeadingAxisSums

noncomputable section

open scoped BigOperators

/-!
  The two output arrays totalled, at the exact reading.

  Entry b of the first output is `(0 + T(b, first half)) + T(b, second half)`, where T is the total over a [2048, 128] block of
  `entryLoss(g, r) · mask`; the blocks of the 64 grid points tile the [32, 4096, 128] operands, so the total of the output is the
  total of `entryLoss(g, r) · mask` over every entry of the operands. The same for the second output with the mask alone.
  Only commutativity and associativity of + on the extended reals are used.
-/

namespace Cert.KernelIdeal.KValue

open Idealize.ShloMosaic Idealize.ShloMosaic.TcCoe Idealize.SL.Sem Idealize.ShloMosaic.ValueIdx Cert.KernelIdeal Cert.KernelIdeal.Gen
open Cert.RowBlockTotals Cert.KernelIdeal.Payload

/-- Two accumulations from zero, over blocks whose entries are rows `0 … 2047` and `2048 … 4095` of batch `b` of the arrays A0, A1, A2. -/
theorem two_points_loss (x0 x1 x2 x0' x1' x2' : Vec Ideal S1x2048x128 .f32) (A0 A1 A2 : S32x4096x128.Idx → EReal) (b : Fin 32) (k : S1x1x1.Idx)
    (h0 : ∀ (r : Fin 2048) (l : Fin 128), x0 (ix3 (0 : Fin 1) r l) = A0 (ix3 b (lowerRow r) l))
    (h1 : ∀ (r : Fin 2048) (l : Fin 128), x1 (ix3 (0 : Fin 1) r l) = A1 (ix3 b (lowerRow r) l))
    (h2 : ∀ (r : Fin 2048) (l : Fin 128), x2 (ix3 (0 : Fin 1) r l) = A2 (ix3 b (lowerRow r) l))
    (h0' : ∀ (r : Fin 2048) (l : Fin 128), x0' (ix3 (0 : Fin 1) r l) = A0 (ix3 b (upperRow r) l))
    (h1' : ∀ (r : Fin 2048) (l : Fin 128), x1' (ix3 (0 : Fin 1) r l) = A1 (ix3 b (upperRow r) l))
    (h2' : ∀ (r : Fin 2048) (l : Fin 128), x2' (ix3 (0 : Fin 1) r l) = A2 (ix3 b (upperRow r) l)) :
    k0_pay5 (F := Ideal) x0' x1' x2' (k0_pay5 x0 x1 x2 (k0_pay2 (F := Ideal))) k
      = (∑ r : Fin 2048, ∑ l : Fin 128, Cert.MaskedLoss.entryLoss (A0 (ix3 b (lowerRow r) l)) (A1 (ix3 b (lowerRow r) l)) * A2 (ix3 b (lowerRow r) l))
        + ∑ r : Fin 2048, ∑ l : Fin 128, Cert.MaskedLoss.entryLoss (A0 (ix3 b (upperRow r) l)) (A1 (ix3 b (upperRow r) l)) * A2 (ix3 b (upperRow r) l) := by
  rw [pay5_apply, pay5_apply, pay2_apply, zero_add]
  congr 1
  · exact Finset.sum_congr rfl fun r _ => Finset.sum_congr rfl fun l _ => by rw [h0 r l, h1 r l, h2 r l]
  · exact Finset.sum_congr rfl fun r _ => Finset.sum_congr rfl fun l _ => by rw [h0' r l, h1' r l, h2' r l]

/-- The same for the mask alone. -/
theorem two_points_norm (x2 x2' : Vec Ideal S1x2048x128 .f32) (A2 : S32x4096x128.Idx → EReal) (b : Fin 32) (k : S1x1x1.Idx)
    (h2 : ∀ (r : Fin 2048) (l : Fin 128), x2 (ix3 (0 : Fin 1) r l) = A2 (ix3 b (lowerRow r) l))
    (h2' : ∀ (r : Fin 2048) (l : Fin 128), x2' (ix3 (0 : Fin 1) r l) = A2 (ix3 b (upperRow r) l)) :
    k0_pay1 (F := Ideal) (k0_pay6 x2') (k0_pay1 (k0_pay6 x2) (k0_pay3 (F := Ideal))) k
      = (∑ r : Fin 2048, ∑ l : Fin 128, A2 (ix3 b (lowerRow r) l)) + ∑ r : Fin 2048, ∑ l : Fin 128, A2 (ix3 b (upperRow r) l) := by
  rw [pay1_pay6_apply, pay1_pay6_apply, pay3_apply, zero_add]
  congr 1
  · exact Finset.sum_congr rfl fun r _ => Finset.sum_congr rfl fun l _ => by rw [h2 r l]
  · exact Finset.sum_congr rfl fun r _ => Finset.sum_congr rfl fun l _ => by rw [h2' r l]

variable (m : (ℓ : Loc nD τ sig) → Buf (Elt Ideal) ℓ)

/-- Batch `b`'s entry of the first output, when the three operands' blocks read the arrays A0, A1, A2. -/
theorem lossBlock_apply (c : Dev nD) (b : Fin 32) (k : S1x1x1.Idx) (A0 A1 A2 : S32x4096x128.Idx → EReal)
    (hA0 : ∀ (t : Fin cfg0.N) (y : S1x2048x128.Idx) (i : S32x4096x128.Idx), (i 0).val = t.val / 2 → (i 1).val = 2048 * (t.val % 2) + (y 1).val → (i 2).val = (y 2).val → (iblk m c 0 t : Vec Ideal S1x2048x128 .f32) y = A0 i)
    (hA1 : ∀ (t : Fin cfg0.N) (y : S1x2048x128.Idx) (i : S32x4096x128.Idx), (i 0).val = t.val / 2 → (i 1).val = 2048 * (t.val % 2) + (y 1).val → (i 2).val = (y 2).val → (iblk m c 1 t : Vec Ideal S1x2048x128 .f32) y = A1 i)
    (hA2 : ∀ (t : Fin cfg0.N) (y : S1x2048x128.Idx) (i : S32x4096x128.Idx), (i 0).val = t.val / 2 → (i 1).val = 2048 * (t.val % 2) + (y 1).val → (i 2).val = (y 2).val → (iblk m c 2 t : Vec Ideal S1x2048x128 .f32) y = A2 i) :
    lossBlock m c b k
      = (∑ r : Fin 2048, ∑ l : Fin 128, Cert.MaskedLoss.entryLoss (A0 (ix3 b (lowerRow r) l)) (A1 (ix3 b (lowerRow r) l)) * A2 (ix3 b (lowerRow r) l))
        + ∑ r : Fin 2048, ∑ l : Fin 128, Cert.MaskedLoss.entryLoss (A0 (ix3 b (upperRow r) l)) (A1 (ix3 b (upperRow r) l)) * A2 (ix3 b (upperRow r) l) :=
  two_points_loss (iblk m c 0 (pt0 b)) (iblk m c 1 (pt0 b)) (iblk m c 2 (pt0 b)) (iblk m c 0 (pt1 b)) (iblk m c 1 (pt1 b)) (iblk m c 2 (pt1 b)) A0 A1 A2 b k
    (fun r l => hA0 (pt0 b) (ix3 (0 : Fin 1) r l) (ix3 b (lowerRow r) l) (by show b.val = (2 * b.val) / 2; omega) (by show r.val = 2048 * ((2 * b.val) % 2) + r.val; omega) rfl)
    (fun r l => hA1 (pt0 b) (ix3 (0 : Fin 1) r l) (ix3 b (lowerRow r) l) (by show b.val = (2 * b.val) / 2; omega) (by show r.val = 2048 * ((2 * b.val) % 2) + r.val; omega) rfl)
    (fun r l => hA2 (pt0 b) (ix3 (0 : Fin 1) r l) (ix3 b (lowerRow r) l) (by show b.val = (2 * b.val) / 2; omega) (by show r.val = 2048 * ((2 * b.val) % 2) + r.val; omega) rfl)
    (fun r l => hA0 (pt1 b) (ix3 (0 : Fin 1) r l) (ix3 b (upperRow r) l) (by show b.val = (2 * b.val + 1) / 2; omega) (by show 2048 + r.val = 2048 * ((2 * b.val + 1) % 2) + r.val; omega) rfl)
    (fun r l => hA1 (pt1 b) (ix3 (0 : Fin 1) r l) (ix3 b (upperRow r) l) (by show b.val = (2 * b.val + 1) / 2; omega) (by show 2048 + r.val = 2048 * ((2 * b.val + 1) % 2) + r.val; omega) rfl)
    (fun r l => hA2 (pt1 b) (ix3 (0 : Fin 1) r l) (ix3 b (upperRow r) l) (by show b.val = (2 * b.val + 1) / 2; omega) (by show 2048 + r.val = 2048 * ((2 * b.val + 1) % 2) + r.val; omega) rfl)

/-- Batch `b`'s entry of the second output, when the third operand's blocks read the array A2. -/
theorem normBlock_apply (c : Dev nD) (b : Fin 32) (k : S1x1x1.Idx) (A2 : S32x4096x128.Idx → EReal)
    (hA2 : ∀ (t : Fin cfg0.N) (y : S1x2048x128.Idx) (i : S32x4096x128.Idx), (i 0).val = t.val / 2 → (i 1).val = 2048 * (t.val % 2) + (y 1).val → (i 2).val = (y 2).val → (iblk m c 2 t : Vec Ideal S1x2048x128 .f32) y = A2 i) :
    normBlock m c b k
      = (∑ r : Fin 2048, ∑ l : Fin 128, A2 (ix3 b (lowerRow r) l)) + ∑ r : Fin 2048, ∑ l : Fin 128, A2 (ix3 b (upperRow r) l) :=
  two_points_norm (iblk m c 2 (pt0 b)) (iblk m c 2 (pt1 b)) A2 b k
    (fun r l => hA2 (pt0 b) (ix3 (0 : Fin 1) r l) (ix3 b (lowerRow r) l) (by show b.val = (2 * b.val) / 2; omega) (by show r.val = 2048 * ((2 * b.val) % 2) + r.val; omega) rfl)
    (fun r l => hA2 (pt1 b) (ix3 (0 : Fin 1) r l) (ix3 b (upperRow r) l) (by show b.val = (2 * b.val + 1) / 2; omega) (by show 2048 + r.val = 2048 * ((2 * b.val + 1) % 2) + r.val; omega) rfl)

/-- The first output's total is the total of `entryLoss(A0, A1) · A2` over the whole operands. -/
theorem lossArr_total (c : Dev nD) (A0 A1 A2 : S32x4096x128.Idx → EReal)
    (hA0 : ∀ (t : Fin cfg0.N) (y : S1x2048x128.Idx) (i : S32x4096x128.Idx), (i 0).val = t.val / 2 → (i 1).val = 2048 * (t.val % 2) + (y 1).val → (i 2).val = (y 2).val → (iblk m c 0 t : Vec Ideal S1x2048x128 .f32) y = A0 i)
    (hA1 : ∀ (t : Fin cfg0.N) (y : S1x2048x128.Idx) (i : S32x4096x128.Idx), (i 0).val = t.val / 2 → (i 1).val = 2048 * (t.val % 2) + (y 1).val → (i 2).val = (y 2).val → (iblk m c 1 t : Vec Ideal S1x2048x128 .f32) y = A1 i)
    (hA2 : ∀ (t : Fin cfg0.N) (y : S1x2048x128.Idx) (i : S32x4096x128.Idx), (i 0).val = t.val / 2 → (i 1).val = 2048 * (t.val % 2) + (y 1).val → (i 2).val = (y 2).val → (iblk m c 2 t : Vec Ideal S1x2048x128 .f32) y = A2 i) :
    ∑ k : S32x1x1.Idx, lossArr m c k = ∑ j : S32x4096x128.Idx, Cert.MaskedLoss.entryLoss (A0 j) (A1 j) * A2 j := by
  rw [Cert.LeadingAxisSums.sum_unit_tail, sum_row_blocks]
  exact Finset.sum_congr rfl fun b _ => lossBlock_apply m c b _ A0 A1 A2 hA0 hA1 hA2

/-- The second output's total is the total of A2 over the whole operand. -/
theorem normArr_total (c : Dev nD) (A2 : S32x4096x128.Idx → EReal)
    (hA2 : ∀ (t : Fin cfg0.N) (y : S1x2048x128.Idx) (i : S32x4096x128.Idx), (i 0).val = t.val / 2 → (i 1).val = 2048 * (t.val % 2) + (y 1).val → (i 2).val = (y 2).val → (iblk m c 2 t : Vec Ideal S1x2048x128 .f32) y = A2 i) :
    ∑ k : S32x1x1.Idx, normArr m c k = ∑ j : S32x4096x128.Idx, A2 j := by
  rw [Cert.LeadingAxisSums.sum_unit_tail, sum_row_blocks]
  exact Finset.sum_congr rfl fun b _ => normBlock_apply m c b _ A2 hA2

end Cert.KernelIdeal.KValue

end
-- ==== Proof.LibTypedRef.lean ====
/-
  A typed reference is a buffer together with the type its contents are read at, which is the buffer's own type.
  A value written through such a reference is carried to the buffer's type, and a value read through it is carried
  back.  The two transports are inverse to each other — for every typed reference, with nothing evaluated: the
  statement does not look up what the buffer's type is.

  Where a program's operations are spelt over typed references (the operations of a function the program calls,
  standing in the call's place), each result read back through the list of operations carries one such pair per
  operation, nested one inside the other.  Cancelling the pairs with these lemmas first leaves a term that can be
  rewritten and compared like that of any other list of operations.
-/
import Idealize.ShloMosaic.Lib.StableHlo

namespace Cert.Lib.TypedRef

open Idealize.ShloMosaic Idealize.ShloMosaic.StableHlo

variable {sig : RefSig} {Val : EltTy → Type} {T : BufTy}

/-- Contents carried to a typed reference's buffer type and back are the contents. -/
theorem ofBuf_toBuf (x : TRef sig T) (v : T.Contents Val) : x.ofBuf (x.toBuf v) = v := by
  show cast _ (cast _ v) = v
  rw [cast_cast, cast_eq]

/-- Buffer contents carried to a typed reference's value type and back are the buffer contents. -/
theorem toBuf_ofBuf (x : TRef sig T) (v : x.ref.ty.Contents Val) : x.toBuf (x.ofBuf v) = v := by
  show cast _ (cast _ v) = v
  rw [cast_cast, cast_eq]

end Cert.Lib.TypedRef
-- ==== Proof.KernelOperands.lean ====
import proofs.«130656_j46858093200031_2_alg».proof.Proof.Gen.KernelIdeal.Frame
import proofs.«130656_j46858093200031_2_alg».proof.Proof.Stages
import proofs.«130656_j46858093200031_2_alg».proof.Proof.LibTypedRef
import Idealize.ShloMosaic.Lib.StableHlo.Run
import Idealize.ShloMosaic.Lib.Pipeline.Frame

/-!
# What the region's three operand arrays hold when the region is entered

Before the region the program computes, from its two inputs `x : [32, 262144]` and `y : [32, 262144, 4]`, the three
`[32, 4096, 128]` arrays the region reads. Each is a re-laying of a `[32, 262144, 2]` array: the rows of `x` gathered
at the row index taken from `y`; channels 0 and 1 of `y`; and the mask of `y` repeated on both channels. The
operations run in five stretches; each stretch is read once, over an arbitrary state of the buffers before it, as the
array function it computes, and the five readings are then composed.
-/

noncomputable section

open Cert.KernelIdeal Cert.KernelIdeal.Gen Idealize.ShloMosaic Idealize.ShloMosaic.TcCoe Idealize.SL.Sem
  Idealize.ShloMosaic.StableHlo

namespace Cert.KernelIdeal.Operands

variable {F : FTy → Type} [FloatOps F] (m : (ℓ : Loc nD τ sig) → Buf (Elt F) ℓ)

/-! ## Each stretch, over an arbitrary state of the buffers before it

`W` is what the buffers hold before the stretch. Each lemma reads one buffer after the stretch: either the array
function the stretch computes into it, or — for a buffer the stretch does not write — what was there. -/

/-! ### First stretch: the table of rows, and channel 2 of `y` as an integer -/

/-- The table: `x` viewed as rows of two channels. -/
theorem stretch0_v1 (W : Valuation τ sig (Elt F)) :
    after hostOps0 W (Proc.devRef .tc main_v1) = Cert.MaskedLoss.rows (W (Proc.devRef .tc main_arg0)) := by
  simp only [hostOps0]
  after_results_simp
  rfl

/-- Channel 2 of `y`, laid flat and converted to an integer. -/
theorem stretch0_v4 (W : Valuation τ sig (Elt F)) :
    after hostOps0 W (Proc.devRef .tc main_v4)
      = fptosi 32 (shapeCast S32x262144
          (extractStridedSlice S32x262144x1 ![0, 0, 2] (W (Proc.devRef .tc main_arg1)) slices_S32x262144x4_S32x262144x1_0_0_2)
          shapeCasts_S32x262144x1_S32x262144) := by
  simp only [hostOps0]
  after_results_simp
  rfl

/-- The lower clipping bound, the integer 0. -/
theorem stretch0_c (W : Valuation τ sig (Elt F)) :
    after hostOps0 W (Proc.devRef .tc main_c) = constantI S_ 32 0#32 := by
  simp only [hostOps0]
  after_results_simp

/-- The upper clipping bound, the integer 131071. -/
theorem stretch0_c_0 (W : Valuation τ sig (Elt F)) :
    after hostOps0 W (Proc.devRef .tc main_c_0) = constantI S_ 32 131071#32 := by
  simp only [hostOps0]
  after_results_simp

/-- The first stretch does not write `y`. -/
theorem stretch0_arg1 (W : Valuation τ sig (Elt F)) :
    after hostOps0 W (Proc.devRef .tc main_arg1) = W (Proc.devRef .tc main_arg1) := by
  simp only [hostOps0]
  after_results_simp

/-! ### Second stretch: the clip -/

/-- The integer index clipped between the two bounds. -/
theorem stretch1_v5 (W : Valuation τ sig (Elt F)) :
    after hostOps0_1 W (Proc.devRef .tc main_v5)
      = minsi (broadcastInDim S32x262144 ![] bcast_S_S32x262144 (id (W (Proc.devRef .tc main_c_0))))
          (maxsi (broadcastInDim S32x262144 ![] bcast_S_S32x262144 (id (W (Proc.devRef .tc main_c))))
            (W (Proc.devRef .tc main_v4))) := by
  have outer : ∀ X : (⟨S32x262144, .i32⟩ : BufTy).Contents (Elt F),
      (TRef.of main_v5 : TRef sig ⟨S32x262144, .i32⟩).toBuf X = X := fun _ => rfl
  simp only [hostOps0_1]
  after_results_simp
  simp only [Cert.Lib.TypedRef.ofBuf_toBuf, Cert.Lib.TypedRef.toBuf_ofBuf]
  rw [outer]
  rfl

/-- The clip does not write the table. -/
theorem stretch1_v1 (W : Valuation τ sig (Elt F)) :
    after hostOps0_1 W (Proc.devRef .tc main_v1) = W (Proc.devRef .tc main_v1) := by
  simp only [hostOps0_1]
  after_results_simp

/-- The clip does not write `y`. -/
theorem stretch1_arg1 (W : Valuation τ sig (Elt F)) :
    after hostOps0_1 W (Proc.devRef .tc main_arg1) = W (Proc.devRef .tc main_arg1) := by
  simp only [hostOps0_1]
  after_results_simp

/-! ### Third stretch: the index as a column -/

/-- The clipped index laid as a column. -/
theorem stretch2_v6 (W : Valuation τ sig (Elt F)) :
    after hostOps0_2 W (Proc.devRef .tc main_v6)
      = broadcastInDim S32x262144x1 ![0, 1] bcast_S32x262144_S32x262144x1_0_1 (W (Proc.devRef .tc main_v5)) := by
  simp only [hostOps0_2]
  after_results_simp

/-- The third stretch does not write the table. -/
theorem stretch2_v1 (W : Valuation τ sig (Elt F)) :
    after hostOps0_2 W (Proc.devRef .tc main_v1) = W (Proc.devRef .tc main_v1) := by
  simp only [hostOps0_2]
  after_results_simp

/-- The third stretch does not write `y`. -/
theorem stretch2_arg1 (W : Valuation τ sig (Elt F)) :
    after hostOps0_2 W (Proc.devRef .tc main_arg1) = W (Proc.devRef .tc main_arg1) := by
  simp only [hostOps0_2]
  after_results_simp

/-! ### Fourth stretch: the row gather -/

/-- The row-gather stretch writes, from the table and the row index it finds, the gathered rows. -/
theorem stretch3_v7 (W : Valuation τ sig (Elt F)) :
    after hostOps0_3 W (Proc.devRef .tc main_v7)
      = Cert.MaskedLoss.takeRows (W (Proc.devRef .tc main_v1)) (W (Proc.devRef .tc main_v6)) := by
  have outer : ∀ X : (⟨S32x262144x2, .f32⟩ : BufTy).Contents (Elt F),
      (TRef.of main_v7 : TRef sig ⟨S32x262144x2, .f32⟩).toBuf X = X := fun _ => rfl
  simp only [hostOps0_3]
  after_results_simp
  simp only [Cert.Lib.TypedRef.ofBuf_toBuf, Cert.Lib.TypedRef.toBuf_ofBuf]
  rw [outer]
  rfl

/-- The row gather does not write `y`. -/
theorem stretch3_arg1 (W : Valuation τ sig (Elt F)) :
    after hostOps0_3 W (Proc.devRef .tc main_arg1) = W (Proc.devRef .tc main_arg1) := by
  simp only [hostOps0_3]
  after_results_simp

/-! ### Fifth stretch: the targets, the mask, and the three re-layings -/

/-- The gathered rows re-laid as `[32, 4096, 128]`. -/
theorem stretch4_v15 (W : Valuation τ sig (Elt F)) :
    after hostOps0_4 W (Proc.devRef .tc main_v15)
      = shapeCast S32x4096x128 (W (Proc.devRef .tc main_v7)) shapeCasts_S32x262144x2_S32x4096x128 := by
  simp only [hostOps0_4]
  after_results_simp
  rfl

/-- Channels 0 and 1 of `y` re-laid as `[32, 4096, 128]`. -/
theorem stretch4_v16 (W : Valuation τ sig (Elt F)) :
    after hostOps0_4 W (Proc.devRef .tc main_v16)
      = shapeCast S32x4096x128 (Cert.MaskedLoss.targets (W (Proc.devRef .tc main_arg1))) shapeCasts_S32x262144x2_S32x4096x128 := by
  simp only [hostOps0_4]
  after_results_simp
  rfl

/-- The mask of `y` on both channels re-laid as `[32, 4096, 128]`. -/
theorem stretch4_v18 (W : Valuation τ sig (Elt F)) :
    after hostOps0_4 W (Proc.devRef .tc main_v18)
      = shapeCast S32x4096x128 (Cert.MaskedLoss.maskBoth (W (Proc.devRef .tc main_arg1))) shapeCasts_S32x262144x2_S32x4096x128 := by
  simp only [hostOps0_4]
  after_results_simp
  rfl

/-! ## The five stretches composed -/

/-- The buffers when the region is entered: the five stretches run one after the other from the launch contents. -/
theorem V0_eq (c : Dev nD) :
    V0 m c = after hostOps0_4 (after hostOps0_3 (after hostOps0_2 (after hostOps0_1 (after hostOps0 (fun b => m (c, b)))))) := by
  show after (List.flatten [hostOps0, hostOps0_1, hostOps0_2, hostOps0_3, hostOps0_4]) (fun b => m (c, b)) = _
  simp only [List.flatten_cons, List.flatten_nil, List.append_nil, after_append]

/-- The first operand of the region: the rows of `x` gathered at the row index of `y`, re-laid as `[32, 4096, 128]`. -/
theorem V_v15 (c : Dev nD) :
    (V m c main_v15 : S32x4096x128.Idx → Elt F .f32)
      = shapeCast S32x4096x128
          (Cert.MaskedLoss.gathered (m ((c : Thread nD τ).loc main_arg0)) (m ((c : Thread nD τ).loc main_arg1)))
          Cert.KernelIdeal.Gen.shapeCasts_S32x262144x2_S32x4096x128 := by
  show V0 m c (Proc.devRef .tc main_v15) = _
  rw [V0_eq, stretch4_v15, stretch3_v7, stretch2_v1, stretch1_v1, stretch0_v1, stretch2_v6, stretch1_v5,
    stretch0_c_0, stretch0_c, stretch0_v4]
  rfl

/-- The second operand of the region: channels 0 and 1 of `y`, re-laid as `[32, 4096, 128]`. -/
theorem V_v16 (c : Dev nD) :
    (V m c main_v16 : S32x4096x128.Idx → Elt F .f32)
      = shapeCast S32x4096x128 (Cert.MaskedLoss.targets (m ((c : Thread nD τ).loc main_arg1)))
          Cert.KernelIdeal.Gen.shapeCasts_S32x262144x2_S32x4096x128 := by
  show V0 m c (Proc.devRef .tc main_v16) = _
  rw [V0_eq, stretch4_v16, stretch3_arg1, stretch2_arg1, stretch1_arg1, stretch0_arg1]

/-- The third operand of the region: the mask of `y` on both channels, re-laid as `[32, 4096, 128]`. -/
theorem V_v18 (c : Dev nD) :
    (V m c main_v18 : S32x4096x128.Idx → Elt F .f32)
      = shapeCast S32x4096x128 (Cert.MaskedLoss.maskBoth (m ((c : Thread nD τ).loc main_arg1)))
          Cert.KernelIdeal.Gen.shapeCasts_S32x262144x2_S32x4096x128 := by
  show V0 m c (Proc.devRef .tc main_v18) = _
  rw [V0_eq, stretch4_v18, stretch3_arg1, stretch2_arg1, stretch1_arg1, stretch0_arg1]

end Cert.KernelIdeal.Operands

end
-- ==== Proof.RefSums.lean ====
/-
  The reference's two totals at the exact reading, as plain sums over the extended reals.

  At the exact reading every array is a function from indices to extended reals, and each array function of the loss
  reads at an index as the scalar function of the entries there:
    * the smooth-L1 array at entry i is the scalar smooth-L1 of the two entries at i;
    * the mask repeated on both channels at (b, a, c) is the mask at (b, a);
    * the mask is a real number at every entry (the number of a one-bit word).
  A reduce-add over every axis is the initial value plus the sum over all entries, and the initial word here is 0; so
  the numerator is 0 + Σ over (b, a, c) of smooth-L1 · mask, and the denominator's count is 0 + Σ over (b, a) of the mask.
  The gathered rows stay a name throughout: nothing here depends on which rows they are.
-/
import proofs.«130656_j46858093200031_2_alg».proof.Proof.Stages
import proofs.«130656_j46858093200031_2_alg».proof.Proof.EntryLoss
import Idealize.ShloMosaic.PureOps.Ideal.Laws
import Idealize.ShloMosaic.Lib.ValueIdx
import Idealize.ShloMosaic.Lib.Pipeline.Value

noncomputable section

namespace Cert.MaskedLoss

open Idealize.ShloMosaic Idealize.ShloMosaic.ValueIdx Cert.ReferenceIdeal Cert.ReferenceIdeal.Facts₀

/-! ## The entrywise operations at an entry, as the scalar operations of the entries -/

theorem mulf_at {s : Shape} (a b : FVec Ideal s .f32) (i : s.Idx) : mulf a b i = FloatOps.mulf (a i) (b i) := rfl
theorem subf_at {s : Shape} (a b : FVec Ideal s .f32) (i : s.Idx) : subf a b i = FloatOps.subf (a i) (b i) := rfl
theorem absf_at {s : Shape} (a : FVec Ideal s .f32) (i : s.Idx) : Host.absf a i = FloatOps.absf (a i) := rfl
/-- A rank-0 constant spread over an array reads its word at every entry. -/
theorem spread_at {t : Shape} (h : S_.BroadcastsInDim t (![] : Fin 0 → Fin t.rank)) (w : BitVec FTy.f32.bits) (i : t.Idx) :
    broadcastInDim t ![] h (constant (F := Ideal) S_ .f32 w) i = Scalar.ofBits .f32 w := rfl

/-- The smooth-L1 array at an entry is the scalar smooth-L1 of the two entries: the absolute value, the comparison, the
    products and the differences are entrywise, and a rank-0 constant spread over the array reads its word everywhere. -/
theorem smoothL1_apply (g r : (⟨S32x262144x2, .f32⟩ : BufTy).Contents (Elt Ideal)) (i : S32x262144x2.Idx) :
    smoothL1 (F := Ideal) g r i = entryLoss (g i) (r i) := by
  unfold smoothL1 entryLoss
  simp only [select_apply, cmpf_apply, mulf_at, subf_at, absf_at, spread_at] <;> rfl

/-- The mask repeated on both channels, at (b, a, c), is the mask at (b, a): the first spreading adds a unit axis, read
    at 0, and the second repeats along it. -/
theorem maskBoth_apply (y : (⟨S32x262144x4, .f32⟩ : BufTy).Contents (Elt Ideal)) (i : S32x262144x2.Idx) :
    maskBoth (F := Ideal) y i = maskF y (ix2 (i 0) (i 1)) := by
  unfold maskBoth
  rw [broadcastInDim_apply ![0, 1, 2] bcast_S32x262144x1_S32x262144x2_0_1_2 _ i
      (ix3 (i 0) (i 1) (0 : Fin 1) : S32x262144x1.Idx) (fun a => by fin_cases a <;> rfl)]
  exact broadcastInDim_apply ![0, 1] bcast_S32x262144_S32x262144x1_0_1 _
      (ix3 (i 0) (i 1) (0 : Fin 1) : S32x262144x1.Idx) (ix2 (i 0) (i 1) : S32x262144.Idx) (fun a => by fin_cases a <;> rfl)

/-- The mask at an entry is a real number: the number of a one-bit word. -/
theorem maskF_real (y : (⟨S32x262144x4, .f32⟩ : BufTy).Contents (Elt Ideal)) (i' : S32x262144.Idx) :
    ∃ r : ℝ, maskF (F := Ideal) y i' = (r : EReal) :=
  ⟨((maskBits (F := Ideal) y i').toNat : ℝ), rfl⟩

/-- The numerator's total: 0 plus the sum over every (batch, anchor, channel) of the entry's smooth-L1 times the
    anchor's mask. -/
theorem loss_total (x : (⟨S32x262144, .f32⟩ : BufTy).Contents (Elt Ideal)) (y : (⟨S32x262144x4, .f32⟩ : BufTy).Contents (Elt Ideal)) (j : S_.Idx) :
    Host.reduceAdd (F := Ideal) (mulf (smoothL1 (gathered x y) (targets y)) (maskBoth y)) (constant S_ .f32 0x00000000#32) reducesTo_S32x262144x2_S_d0_1_2 h_S_ j
      = 0 + ∑ i : S32x262144x2.Idx, entryLoss (gathered x y i) (targets y i) * maskF y (ix2 (i 0) (i 1)) := by
  show Ideal.hostReduceAdd _ _ _ j = _
  rw [Ideal.hostReduceAdd_total _ (fun b => b.elim0)]
  show Ideal.ofBits .f32 0x00000000#32 + _ = _
  rw [Ideal.ofBits_zero_f32]
  refine congrArg (fun t => (0 : EReal) + t) (Finset.sum_congr rfl fun i _ => ?_)
  rw [mulf_apply, smoothL1_apply, maskBoth_apply]

/-- The mask count's total: 0 plus the sum of the mask over every (batch, anchor). -/
theorem mask_total (y : (⟨S32x262144x4, .f32⟩ : BufTy).Contents (Elt Ideal)) (j : S_.Idx) :
    Host.reduceAdd (F := Ideal) (maskF y) (constant S_ .f32 0x00000000#32) reducesTo_S32x262144_S_d0_1 h_S_ j
      = 0 + ∑ i' : S32x262144.Idx, maskF y i' := by
  show Ideal.hostReduceAdd _ _ _ j = _
  rw [Ideal.hostReduceAdd_total _ (fun b => b.elim0)]
  show Ideal.ofBits .f32 0x00000000#32 + _ = _
  rw [Ideal.ofBits_zero_f32]

end Cert.MaskedLoss

end
-- ==== Proof.Bridge.lean ====
import proofs.«130656_j46858093200031_2_alg».proof.Proof.KernelRun
import proofs.«130656_j46858093200031_2_alg».proof.Proof.KernelTotals
import proofs.«130656_j46858093200031_2_alg».proof.Proof.KernelOperands
import proofs.«130656_j46858093200031_2_alg».proof.Proof.RefSums

noncomputable section

open scoped BigOperators

/-!
  The two programs return the same extended real.

  Kernel side: the first output's total is the total of `entryLoss(g, r) · mask` over the [32, 4096, 128] operands, which are the
  row-major re-layings of the gathered rows, the targets and the two-channel mask, all of shape [32, 262144, 2]; a re-laying
  permutes the entries, so the total is the reference's total over [32, 262144, 2]. The second output's total is the total of
  the two-channel mask, twice the number of masked anchors; the mask entries are the real numbers 0 and 1, so half of it is the
  reference's count. Numerator and count equal, the two quotients `(num / max(1, cnt)) · 1` are the same term.
-/

namespace Cert.KernelIdeal.KValue

open Idealize.ShloMosaic Idealize.ShloMosaic.TcCoe Idealize.SL.Sem Idealize.ShloMosaic.ValueIdx Cert.KernelIdeal Cert.KernelIdeal.Gen
open Cert.MaskedLoss

variable (m : (ℓ : Loc nD τ sig) → Buf (Elt Ideal) ℓ)

/-- The first operand's block entries are entries of the re-laid gathered rows. -/
theorem reads0 (c : Dev nD) (t : Fin cfg0.N) (y : S1x2048x128.Idx) (i : S32x4096x128.Idx)
    (h0 : (i 0).val = t.val / 2) (h1 : (i 1).val = 2048 * (t.val % 2) + (y 1).val) (h2 : (i 2).val = (y 2).val) :
    (iblk m c 0 t : Vec Ideal S1x2048x128 .f32) y
      = shapeCast S32x4096x128 (gathered (m ((c : Thread nD τ).loc main_arg0)) (m ((c : Thread nD τ).loc main_arg1))) Cert.KernelIdeal.Gen.shapeCasts_S32x262144x2_S32x4096x128 i :=
  (iblk0_apply m c t y i h0 h1 h2).trans (congrFun (Cert.KernelIdeal.Operands.V_v15 m c) i)

/-- The second operand's block entries are entries of the re-laid targets. -/
theorem reads1 (c : Dev nD) (t : Fin cfg0.N) (y : S1x2048x128.Idx) (i : S32x4096x128.Idx)
    (h0 : (i 0).val = t.val / 2) (h1 : (i 1).val = 2048 * (t.val % 2) + (y 1).val) (h2 : (i 2).val = (y 2).val) :
    (iblk m c 1 t : Vec Ideal S1x2048x128 .f32) y
      = shapeCast S32x4096x128 (targets (m ((c : Thread nD τ).loc main_arg1))) Cert.KernelIdeal.Gen.shapeCasts_S32x262144x2_S32x4096x128 i :=
  (iblk1_apply m c t y i h0 h1 h2).trans (congrFun (Cert.KernelIdeal.Operands.V_v16 m c) i)

/-- The third operand's block entries are entries of the re-laid two-channel mask. -/
theorem reads2 (c : Dev nD) (t : Fin cfg0.N) (y : S1x2048x128.Idx) (i : S32x4096x128.Idx)
    (h0 : (i 0).val = t.val / 2) (h1 : (i 1).val = 2048 * (t.val % 2) + (y 1).val) (h2 : (i 2).val = (y 2).val) :
    (iblk m c 2 t : Vec Ideal S1x2048x128 .f32) y
      = shapeCast S32x4096x128 (maskBoth (m ((c : Thread nD τ).loc main_arg1))) Cert.KernelIdeal.Gen.shapeCasts_S32x262144x2_S32x4096x128 i :=
  (iblk2_apply m c t y i h0 h1 h2).trans (congrFun (Cert.KernelIdeal.Operands.V_v18 m c) i)

/-- The host's total of a [32, 1, 1] array from the zero word is 0 plus the sum of its entries. -/
theorem total_from_zero (L : Vec Ideal S32x1x1 .f32) (j : S_.Idx) :
    Host.reduceAdd (F := Ideal) L (constant S_ .f32 0x00000000#32) reducesTo_S32x1x1_S_d0_1_2 h_S_ j = 0 + ∑ k : S32x1x1.Idx, L k := by
  show Ideal.hostReduceAdd _ _ _ j = _
  rw [Ideal.hostReduceAdd_total _ (fun b => b.elim0)]
  show Ideal.ofBits .f32 0x00000000#32 + _ = _
  rw [Ideal.ofBits_zero_f32]

/-- The first output's total is the reference's masked total over [32, 262144, 2]: a re-laying permutes the entries. -/
theorem loss_sum (c : Dev nD) :
    (∑ k : S32x1x1.Idx, lossArr m c k)
      = ∑ i : Cert.ReferenceIdeal.S32x262144x2.Idx, entryLoss ((gathered (m ((c : Thread nD τ).loc main_arg0)) (m ((c : Thread nD τ).loc main_arg1))) i) ((targets (m ((c : Thread nD τ).loc main_arg1))) i) * (maskF (m ((c : Thread nD τ).loc main_arg1))) (ix2 (i 0) (i 1)) :=
  ((lossArr_total m c _ _ _ (reads0 m c) (reads1 m c) (reads2 m c)).trans
    (Equiv.sum_comp (Shape.reshapeEquiv Cert.KernelIdeal.Gen.shapeCasts_S32x262144x2_S32x4096x128)
      (fun i => entryLoss ((gathered (m ((c : Thread nD τ).loc main_arg0)) (m ((c : Thread nD τ).loc main_arg1))) i) ((targets (m ((c : Thread nD τ).loc main_arg1))) i) * (maskBoth (m ((c : Thread nD τ).loc main_arg1))) i))).trans
    (Finset.sum_congr rfl fun i _ => congrArg (fun t => entryLoss ((gathered (m ((c : Thread nD τ).loc main_arg0)) (m ((c : Thread nD τ).loc main_arg1))) i) ((targets (m ((c : Thread nD τ).loc main_arg1))) i) * t) (maskBoth_apply _ i))

/-- The second output's total is the two-channel mask's total over [32, 262144, 2]. -/
theorem norm_sum (c : Dev nD) :
    (∑ k : S32x1x1.Idx, normArr m c k) = ∑ i : Cert.ReferenceIdeal.S32x262144x2.Idx, (maskF (m ((c : Thread nD τ).loc main_arg1))) (ix2 (i 0) (i 1)) :=
  ((normArr_total m c _ (reads2 m c)).trans
    (Equiv.sum_comp (Shape.reshapeEquiv Cert.KernelIdeal.Gen.shapeCasts_S32x262144x2_S32x4096x128) (fun i => (maskBoth (m ((c : Thread nD τ).loc main_arg1))) i))).trans
    (Finset.sum_congr rfl fun i _ => maskBoth_apply _ i)

/-- The numerators agree. -/
theorem num_eq (c : Dev nD) :
    Host.reduceAdd (F := Ideal) (lossArr m c) (constant S_ .f32 0x00000000#32) reducesTo_S32x1x1_S_d0_1_2 h_S_
      = Host.reduceAdd (F := Ideal) (mulf (smoothL1 (gathered (m ((c : Thread nD τ).loc main_arg0)) (m ((c : Thread nD τ).loc main_arg1))) (targets (m ((c : Thread nD τ).loc main_arg1)))) (maskBoth (m ((c : Thread nD τ).loc main_arg1))))
          (constant Cert.ReferenceIdeal.S_ .f32 0x00000000#32) Cert.ReferenceIdeal.Gen.reducesTo_S32x262144x2_S_d0_1_2 Cert.ReferenceIdeal.Gen.h_S_ := by
  funext j
  exact ((total_from_zero (lossArr m c) j).trans (congrArg (fun t : EReal => 0 + t) (loss_sum m c))).trans
    (loss_total (m ((c : Thread nD τ).loc main_arg0)) (m ((c : Thread nD τ).loc main_arg1)) j).symm

/-- Scaling a scalar by the word of 0.5, read at its one index. -/
theorem scale_half_apply (X : FVec Ideal S_ .f32) (j : S_.Idx) :
    mulf X (constant S_ .f32 0x3F000000#32) j = X j * Ideal.ofBits .f32 0x3F000000#32 := rfl

/-- Half the two-channel mask total is the mask count: the mask entries are the reals 0 and 1. -/
theorem cnt_eq (c : Dev nD) :
    mulf (Host.reduceAdd (F := Ideal) (normArr m c) (constant S_ .f32 0x00000000#32) reducesTo_S32x1x1_S_d0_1_2 h_S_) (constant S_ .f32 0x3F000000#32)
      = Host.reduceAdd (F := Ideal) (maskF (m ((c : Thread nD τ).loc main_arg1))) (constant Cert.ReferenceIdeal.S_ .f32 0x00000000#32)
          Cert.ReferenceIdeal.Gen.reducesTo_S32x262144_S_d0_1 Cert.ReferenceIdeal.Gen.h_S_ := by
  funext j
  refine (scale_half_apply _ j).trans ?_
  refine (congrArg (fun t : EReal => t * Ideal.ofBits .f32 0x3F000000#32)
    ((total_from_zero (normArr m c) j).trans (congrArg (fun t : EReal => 0 + t) (norm_sum m c)))).trans ?_
  refine (congrArg (fun t : EReal => (0 + ∑ i : Cert.ReferenceIdeal.S32x262144x2.Idx, (maskF (m ((c : Thread nD τ).loc main_arg1))) (ix2 (i 0) (i 1))) * t)
    Cert.RowBlockTotals.ofBits_half).trans ?_
  exact (Cert.RowBlockTotals.half_of_doubled_count (maskF (m ((c : Thread nD τ).loc main_arg1))) (maskF_real _)).trans (mask_total (m ((c : Thread nD τ).loc main_arg1)) j).symm

/-- The kernel program's result is the loss. -/
theorem tail_eq_loss (c : Dev nD) :
    tailValue (F := Ideal) (lossArr m c) (normArr m c) = lossValue (m ((c : Thread nD τ).loc main_arg0)) (m ((c : Thread nD τ).loc main_arg1)) := by
  unfold tailValue lossValue
  rw [num_eq, cnt_eq]

end Cert.KernelIdeal.KValue

end
-- ==== Proof.RefRun.lean ====
/-
  The reference program's run, read stretch by stretch.

  The reference is a straight line of 68 array operations. Reading the value of its result as one composed term
  repeats the row index at every use; here the line is cut into four consecutive stretches, and each stretch is
  read as one of the named array functions of the loss (`Cert.MaskedLoss`), for ANY contents of the buffers it
  starts from:
    * stretch A (operations 1-20)  computes the targets, the mask bits, the rows of x and the clipped row index;
    * stretch B (operations 21-42) is the row gather along axis 1 of those rows at that index;
    * stretch C (operations 43-55) is the entrywise smooth-L1 value of the gathered rows against the targets;
    * stretch D (operations 56-68) multiplies by the mask, totals, and divides by max(1, the mask count).
  A stretch leaves untouched every buffer it does not write, so the four readings compose into
  `lossValue x y` at the result buffer, the two argument buffers unchanged.
-/
import proofs.«130656_j46858093200031_2_alg».proof.Proof.Stages
import proofs.«130656_j46858093200031_2_alg».proof.Proof.LibTypedRef
import Idealize.ShloMosaic.Lib.StableHlo.Run
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Stretch A: the slices of y (targets, index channel, mask channel), the mask bits, x as rows, and the index
    channel made an integer, clipped to [0, 131071] and laid as a column. -/
abbrev opsA : List (HloOp τ sig (Elt F)) :=
  [ reshape main_arg0 main_v0 rfl shapeCasts_S32x262144_S32x2x131072,
    unary main_arg1 main_v1 ((extractStridedSlice S32x262144x2 ![0, 0, 0] · slices_S32x262144x4_S32x262144x2_0_0_0) : (⟨S32x262144x4, .f32⟩ : BufTy).Contents (Elt F) → (⟨S32x262144x2, .f32⟩ : BufTy).Contents (Elt F)),
    unary main_arg1 main_v2 ((extractStridedSlice S32x262144x1 ![0, 0, 2] · slices_S32x262144x4_S32x262144x1_0_0_2) : (⟨S32x262144x4, .f32⟩ : BufTy).Contents (Elt F) → (⟨S32x262144x1, .f32⟩ : BufTy).Contents (Elt F)),
    reshape main_v2 main_v3 rfl shapeCasts_S32x262144x1_S32x262144,
    unary main_v3 main_v4 (fptosi 32 : (⟨S32x262144, .f32⟩ : BufTy).Contents (Elt F) → (⟨S32x262144, .i32⟩ : BufTy).Contents (Elt F)),
    unary main_arg1 main_v5 ((extractStridedSlice S32x262144x1 ![0, 0, 3] · slices_S32x262144x4_S32x262144x1_0_0_3) : (⟨S32x262144x4, .f32⟩ : BufTy).Contents (Elt F) → (⟨S32x262144x1, .f32⟩ : BufTy).Contents (Elt F)),
    reshape main_v5 main_v6 rfl shapeCasts_S32x262144x1_S32x262144,
    nullary main_cst (constant S_ .f32 0x3F800000#32),
    unary main_cst main_v7 (broadcastInDim S32x262144 ![] bcast_S_S32x262144 : (⟨S_, .f32⟩ : BufTy).Contents (Elt F) → (⟨S32x262144, .f32⟩ : BufTy).Contents (Elt F)),
    binary main_v6 main_v7 main_v8 (cmpf .oeq : (⟨S32x262144, .f32⟩ : BufTy).Contents (Elt F) → (⟨S32x262144, .f32⟩ : BufTy).Contents (Elt F) → (⟨S32x262144, .i1⟩ : BufTy).Contents (Elt F)),
    unary main_v0 main_v9 ((transpose S32x131072x2 [0, 2, 1] · transposes_S32x2x131072_S32x131072x2_0_2_1) : (⟨S32x2x131072, .f32⟩ : BufTy).Contents (Elt F) → (⟨S32x131072x2, .f32⟩ : BufTy).Contents (Elt F)),
    nullary main_c (constantI S_ 32 0#32),
    nullary main_c_0 (constantI S_ 32 131071#32),
    TRef.unary (TRef.of (T := ⟨S_, .i32⟩) main_c) (TRef.of (T := ⟨S_, .i32⟩) main_call0_v0) id,
    TRef.unary (TRef.of (T := ⟨S_, .i32⟩) main_call0_v0) (TRef.of (T := ⟨S32x262144, .i32⟩) main_call0_v1) (broadcastInDim S32x262144 ![] bcast_S_S32x262144),
    TRef.binary (TRef.of (T := ⟨S32x262144, .i32⟩) main_call0_v1) (TRef.of (T := ⟨S32x262144, .i32⟩) main_v4) (TRef.of (T := ⟨S32x262144, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S32x262144, .i32⟩) main_call0_v4) (broadcastInDim S32x262144 ![] bcast_S_S32x262144),
    TRef.binary (TRef.of (T := ⟨S32x262144, .i32⟩) main_call0_v4) (TRef.of (T := ⟨S32x262144, .i32⟩) main_call0_v2) (TRef.of (T := ⟨S32x262144, .i32⟩) main_v10) minsi,
    unary main_v10 main_v11 (broadcastInDim S32x262144x1 ![0, 1] bcast_S32x262144_S32x262144x1_0_1 : (⟨S32x262144, .i32⟩ : BufTy).Contents (Elt F) → (⟨S32x262144x1, .i32⟩ : BufTy).Contents (Elt F)) ]

/-- Stretch B: the row gather along axis 1 — a negative index wrapped, the in-range test, the gather itself, and the
    fill of out-of-range rows. -/
abbrev opsB : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32x262144x1, .i32⟩) main_call1_v0) (broadcastInDim S32x262144x1 ![] bcast_S_S32x262144x1),
    TRef.binary (TRef.of (T := ⟨S32x262144x1, .i32⟩) main_v11) (TRef.of (T := ⟨S32x262144x1, .i32⟩) main_call1_v0) (TRef.of (T := ⟨S32x262144x1, .i1⟩) main_call1_v1) (cmpi .slt),
    TRef.nullary (TRef.of (T := ⟨S_, .i32⟩) main_call1_c_0) (constantI S_ 32 131072#32),
    TRef.unary (TRef.of (T := ⟨S_, .i32⟩) main_call1_c_0) (TRef.of (T := ⟨S32x262144x1, .i32⟩) main_call1_v2) (broadcastInDim S32x262144x1 ![] bcast_S_S32x262144x1),
    TRef.binary (TRef.of (T := ⟨S32x262144x1, .i32⟩) main_v11) (TRef.of (T := ⟨S32x262144x1, .i32⟩) main_call1_v2) (TRef.of (T := ⟨S32x262144x1, .i32⟩) main_call1_v3) addi,
    TRef.ternary (TRef.of (T := ⟨S32x262144x1, .i1⟩) main_call1_v1) (TRef.of (T := ⟨S32x262144x1, .i32⟩) main_call1_v3) (TRef.of (T := ⟨S32x262144x1, .i32⟩) main_v11) (TRef.of (T := ⟨S32x262144x1, .i32⟩) main_call1_v4) select,
    TRef.nullary (TRef.of (T := ⟨S1, .i32⟩) main_call1_c_1) (constantI S1 32 131071#32),
    TRef.nullary (TRef.of (T := ⟨S_, .i32⟩) main_call1_c_2) (constantI S_ 32 0#32),
    TRef.unary (TRef.of (T := ⟨S_, .i32⟩) main_call1_c_2) (TRef.of (T := ⟨S32x262144x1, .i32⟩) main_call1_v5) (broadcastInDim S32x262144x1 ![] bcast_S_S32x262144x1),
    TRef.binary (TRef.of (T := ⟨S32x262144x1, .i32⟩) main_call1_v4) (TRef.of (T := ⟨S32x262144x1, .i32⟩) main_call1_v5) (TRef.of (T := ⟨S32x262144x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S32x262144x1, .i32⟩) main_call1_v8) (broadcastInDim S32x262144x1 ![0, 1, 2] bcast_S1x1x1_S32x262144x1_0_1_2),
    TRef.binary (TRef.of (T := ⟨S32x262144x1, .i32⟩) main_call1_v4) (TRef.of (T := ⟨S32x262144x1, .i32⟩) main_call1_v8) (TRef.of (T := ⟨S32x262144x1, .i1⟩) main_call1_v9) (cmpi .sle),
    TRef.binary (TRef.of (T := ⟨S32x262144x1, .i1⟩) main_call1_v6) (TRef.of (T := ⟨S32x262144x1, .i1⟩) main_call1_v9) (TRef.of (T := ⟨S32x262144x1, .i1⟩) main_call1_v10) andi,
    TRef.nullary (TRef.of (T := ⟨S_, .i1⟩) main_call1_c_3) (constantI S_ 1 1#1),
    TRef.binary (TRef.of (T := ⟨S32x262144x1, .i1⟩) main_call1_v10) (TRef.of (T := ⟨S_, .i1⟩) main_call1_c_3) (TRef.of (T := ⟨S32x262144, .i1⟩) main_call1_v11) (fun x v => Host.reduce IntOp.andi x v reducesTo_S32x262144x1_S32x262144_d2 h_S_),
    TRef.binary (TRef.of (T := ⟨S32x131072x2, .f32⟩) main_v9) (TRef.of (T := ⟨S32x262144x1, .i32⟩) main_call1_v4) (TRef.of (T := ⟨S32x262144x2, .f32⟩) main_call1_v12) (fun x i => Host.gather gather_S32x131072x2_S32x262144x1_S32x262144x2_2_1_0_0_1_2_112 x i),
    TRef.unary (TRef.of (T := ⟨S32x262144, .i1⟩) main_call1_v11) (TRef.of (T := ⟨S32x262144x2, .i1⟩) main_call1_v13) (broadcastInDim S32x262144x2 ![0, 1] bcast_S32x262144_S32x262144x2_0_1),
    TRef.nullary (TRef.of (T := ⟨S_, .f32⟩) main_call1_cst) (constant S_ .f32 0x7FC00000#32),
    TRef.unary (TRef.of (T := ⟨S_, .f32⟩) main_call1_cst) (TRef.of (T := ⟨S32x262144x2, .f32⟩) main_call1_v14) (broadcastInDim S32x262144x2 ![] bcast_S_S32x262144x2),
    TRef.ternary (TRef.of (T := ⟨S32x262144x2, .i1⟩) main_call1_v13) (TRef.of (T := ⟨S32x262144x2, .f32⟩) main_call1_v12) (TRef.of (T := ⟨S32x262144x2, .f32⟩) main_call1_v14) (TRef.of (T := ⟨S32x262144x2, .f32⟩) main_v12) select ]

/-- Stretch C: with d = gathered - targets, the entrywise choice between (0.5·d)·d and |d| - 0.5 by |d| < 1. -/
abbrev opsC : List (HloOp τ sig (Elt F)) :=
  [ binary main_v12 main_v1 main_v13 (subf : (⟨S32x262144x2, .f32⟩ : BufTy).Contents (Elt F) → (⟨S32x262144x2, .f32⟩ : BufTy).Contents (Elt F) → (⟨S32x262144x2, .f32⟩ : BufTy).Contents (Elt F)),
    unary main_v13 main_v14 (Host.absf : (⟨S32x262144x2, .f32⟩ : BufTy).Contents (Elt F) → (⟨S32x262144x2, .f32⟩ : BufTy).Contents (Elt F)),
    nullary main_cst_1 (constant S_ .f32 0x3F800000#32),
    unary main_cst_1 main_v15 (broadcastInDim S32x262144x2 ![] bcast_S_S32x262144x2 : (⟨S_, .f32⟩ : BufTy).Contents (Elt F) → (⟨S32x262144x2, .f32⟩ : BufTy).Contents (Elt F)),
    binary main_v14 main_v15 main_v16 (cmpf .olt : (⟨S32x262144x2, .f32⟩ : BufTy).Contents (Elt F) → (⟨S32x262144x2, .f32⟩ : BufTy).Contents (Elt F) → (⟨S32x262144x2, .i1⟩ : BufTy).Contents (Elt F)),
    nullary main_cst_2 (constant S_ .f32 0x3F000000#32),
    unary main_cst_2 main_v17 (broadcastInDim S32x262144x2 ![] bcast_S_S32x262144x2 : (⟨S_, .f32⟩ : BufTy).Contents (Elt F) → (⟨S32x262144x2, .f32⟩ : BufTy).Contents (Elt F)),
    binary main_v17 main_v13 main_v18 (mulf : (⟨S32x262144x2, .f32⟩ : BufTy).Contents (Elt F) → (⟨S32x262144x2, .f32⟩ : BufTy).Contents (Elt F) → (⟨S32x262144x2, .f32⟩ : BufTy).Contents (Elt F)),
    binary main_v18 main_v13 main_v19 (mulf : (⟨S32x262144x2, .f32⟩ : BufTy).Contents (Elt F) → (⟨S32x262144x2, .f32⟩ : BufTy).Contents (Elt F) → (⟨S32x262144x2, .f32⟩ : BufTy).Contents (Elt F)),
    nullary main_cst_3 (constant S_ .f32 0x3F000000#32),
    unary main_cst_3 main_v20 (broadcastInDim S32x262144x2 ![] bcast_S_S32x262144x2 : (⟨S_, .f32⟩ : BufTy).Contents (Elt F) → (⟨S32x262144x2, .f32⟩ : BufTy).Contents (Elt F)),
    binary main_v14 main_v20 main_v21 (subf : (⟨S32x262144x2, .f32⟩ : BufTy).Contents (Elt F) → (⟨S32x262144x2, .f32⟩ : BufTy).Contents (Elt F) → (⟨S32x262144x2, .f32⟩ : BufTy).Contents (Elt F)),
    TRef.ternary (TRef.of (T := ⟨S32x262144x2, .i1⟩) main_v16) (TRef.of (T := ⟨S32x262144x2, .f32⟩) main_v19) (TRef.of (T := ⟨S32x262144x2, .f32⟩) main_v21) (TRef.of (T := ⟨S32x262144x2, .f32⟩) main_v22) select ]

/-- Stretch D: the mask as numbers on both channels, the masked total, the mask count, and their ratio. -/
abbrev opsD : List (HloOp τ sig (Elt F)) :=
  [ unary main_v8 main_v23 (uitofp .f32 : (⟨S32x262144, .i1⟩ : BufTy).Contents (Elt F) → (⟨S32x262144, .f32⟩ : BufTy).Contents (Elt F)),
    unary main_v23 main_v24 (broadcastInDim S32x262144x1 ![0, 1] bcast_S32x262144_S32x262144x1_0_1 : (⟨S32x262144, .f32⟩ : BufTy).Contents (Elt F) → (⟨S32x262144x1, .f32⟩ : BufTy).Contents (Elt F)),
    unary main_v24 main_v25 (broadcastInDim S32x262144x2 ![0, 1, 2] bcast_S32x262144x1_S32x262144x2_0_1_2 : (⟨S32x262144x1, .f32⟩ : BufTy).Contents (Elt F) → (⟨S32x262144x2, .f32⟩ : BufTy).Contents (Elt F)),
    binary main_v22 main_v25 main_v26 (mulf : (⟨S32x262144x2, .f32⟩ : BufTy).Contents (Elt F) → (⟨S32x262144x2, .f32⟩ : BufTy).Contents (Elt F) → (⟨S32x262144x2, .f32⟩ : BufTy).Contents (Elt F)),
    nullary main_cst_4 (constant S_ .f32 0x00000000#32),
    binary main_v26 main_cst_4 main_v27 ((fun x v => Host.reduceAdd x v reducesTo_S32x262144x2_S_d0_1_2 h_S_) : (⟨S32x262144x2, .f32⟩ : BufTy).Contents (Elt F) → (⟨S_, .f32⟩ : BufTy).Contents (Elt F) → (⟨S_, .f32⟩ : BufTy).Contents (Elt F)),
    nullary main_cst_5 (constant S_ .f32 0x00000000#32),
    binary main_v23 main_cst_5 main_v28 ((fun x v => Host.reduceAdd x v reducesTo_S32x262144_S_d0_1 h_S_) : (⟨S32x262144, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v28 main_v29 (maximumf : (⟨S_, .f32⟩ : BufTy).Contents (Elt F) → (⟨S_, .f32⟩ : BufTy).Contents (Elt F) → (⟨S_, .f32⟩ : BufTy).Contents (Elt F)),
    binary main_v27 main_v29 main_v30 (Host.divf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_v30 main_cst_7 main_v31 (mulf : (⟨S_, .f32⟩ : BufTy).Contents (Elt F) → (⟨S_, .f32⟩ : BufTy).Contents (Elt F) → (⟨S_, .f32⟩ : BufTy).Contents (Elt F)) ]

/-- @main's 68 operations, in order (a called function's operations stand in its call's place). -/
abbrev ops : List (HloOp τ sig (Elt F)) :=
  [ reshape main_arg0 main_v0 rfl shapeCasts_S32x262144_S32x2x131072,
    unary main_arg1 main_v1 ((extractStridedSlice S32x262144x2 ![0, 0, 0] · slices_S32x262144x4_S32x262144x2_0_0_0) : (⟨S32x262144x4, .f32⟩ : BufTy).Contents (Elt F) → (⟨S32x262144x2, .f32⟩ : BufTy).Contents (Elt F)),
    unary main_arg1 main_v2 ((extractStridedSlice S32x262144x1 ![0, 0, 2] · slices_S32x262144x4_S32x262144x1_0_0_2) : (⟨S32x262144x4, .f32⟩ : BufTy).Contents (Elt F) → (⟨S32x262144x1, .f32⟩ : BufTy).Contents (Elt F)),
    reshape main_v2 main_v3 rfl shapeCasts_S32x262144x1_S32x262144,
    unary main_v3 main_v4 (fptosi 32 : (⟨S32x262144, .f32⟩ : BufTy).Contents (Elt F) → (⟨S32x262144, .i32⟩ : BufTy).Contents (Elt F)),
    unary main_arg1 main_v5 ((extractStridedSlice S32x262144x1 ![0, 0, 3] · slices_S32x262144x4_S32x262144x1_0_0_3) : (⟨S32x262144x4, .f32⟩ : BufTy).Contents (Elt F) → (⟨S32x262144x1, .f32⟩ : BufTy).Contents (Elt F)),
    reshape main_v5 main_v6 rfl shapeCasts_S32x262144x1_S32x262144,
    nullary main_cst (constant S_ .f32 0x3F800000#32),
    unary main_cst main_v7 (broadcastInDim S32x262144 ![] bcast_S_S32x262144 : (⟨S_, .f32⟩ : BufTy).Contents (Elt F) → (⟨S32x262144, .f32⟩ : BufTy).Contents (Elt F)),
    binary main_v6 main_v7 main_v8 (cmpf .oeq : (⟨S32x262144, .f32⟩ : BufTy).Contents (Elt F) → (⟨S32x262144, .f32⟩ : BufTy).Contents (Elt F) → (⟨S32x262144, .i1⟩ : BufTy).Contents (Elt F)),
    unary main_v0 main_v9 ((transpose S32x131072x2 [0, 2, 1] · transposes_S32x2x131072_S32x131072x2_0_2_1) : (⟨S32x2x131072, .f32⟩ : BufTy).Contents (Elt F) → (⟨S32x131072x2, .f32⟩ : BufTy).Contents (Elt F)),
    nullary main_c (constantI S_ 32 0#32),
    nullary main_c_0 (constantI S_ 32 131071#32),
    TRef.unary (TRef.of (T := ⟨S_, .i32⟩) main_c) (TRef.of (T := ⟨S_, .i32⟩) main_call0_v0) id,
    TRef.unary (TRef.of (T := ⟨S_, .i32⟩) main_call0_v0) (TRef.of (T := ⟨S32x262144, .i32⟩) main_call0_v1) (broadcastInDim S32x262144 ![] bcast_S_S32x262144),
    TRef.binary (TRef.of (T := ⟨S32x262144, .i32⟩) main_call0_v1) (TRef.of (T := ⟨S32x262144, .i32⟩) main_v4) (TRef.of (T := ⟨S32x262144, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S32x262144, .i32⟩) main_call0_v4) (broadcastInDim S32x262144 ![] bcast_S_S32x262144),
    TRef.binary (TRef.of (T := ⟨S32x262144, .i32⟩) main_call0_v4) (TRef.of (T := ⟨S32x262144, .i32⟩) main_call0_v2) (TRef.of (T := ⟨S32x262144, .i32⟩) main_v10) minsi,
    unary main_v10 main_v11 (broadcastInDim S32x262144x1 ![0, 1] bcast_S32x262144_S32x262144x1_0_1 : (⟨S32x262144, .i32⟩ : BufTy).Contents (Elt F) → (⟨S32x262144x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S32x262144x1, .i32⟩) main_call1_v0) (broadcastInDim S32x262144x1 ![] bcast_S_S32x262144x1),
    TRef.binary (TRef.of (T := ⟨S32x262144x1, .i32⟩) main_v11) (TRef.of (T := ⟨S32x262144x1, .i32⟩) main_call1_v0) (TRef.of (T := ⟨S32x262144x1, .i1⟩) main_call1_v1) (cmpi .slt),
    TRef.nullary (TRef.of (T := ⟨S_, .i32⟩) main_call1_c_0) (constantI S_ 32 131072#32),
    TRef.unary (TRef.of (T := ⟨S_, .i32⟩) main_call1_c_0) (TRef.of (T := ⟨S32x262144x1, .i32⟩) main_call1_v2) (broadcastInDim S32x262144x1 ![] bcast_S_S32x262144x1),
    TRef.binary (TRef.of (T := ⟨S32x262144x1, .i32⟩) main_v11) (TRef.of (T := ⟨S32x262144x1, .i32⟩) main_call1_v2) (TRef.of (T := ⟨S32x262144x1, .i32⟩) main_call1_v3) addi,
    TRef.ternary (TRef.of (T := ⟨S32x262144x1, .i1⟩) main_call1_v1) (TRef.of (T := ⟨S32x262144x1, .i32⟩) main_call1_v3) (TRef.of (T := ⟨S32x262144x1, .i32⟩) main_v11) (TRef.of (T := ⟨S32x262144x1, .i32⟩) main_call1_v4) select,
    TRef.nullary (TRef.of (T := ⟨S1, .i32⟩) main_call1_c_1) (constantI S1 32 131071#32),
    TRef.nullary (TRef.of (T := ⟨S_, .i32⟩) main_call1_c_2) (constantI S_ 32 0#32),
    TRef.unary (TRef.of (T := ⟨S_, .i32⟩) main_call1_c_2) (TRef.of (T := ⟨S32x262144x1, .i32⟩) main_call1_v5) (broadcastInDim S32x262144x1 ![] bcast_S_S32x262144x1),
    TRef.binary (TRef.of (T := ⟨S32x262144x1, .i32⟩) main_call1_v4) (TRef.of (T := ⟨S32x262144x1, .i32⟩) main_call1_v5) (TRef.of (T := ⟨S32x262144x1, .i1⟩) main_call1_v6) (cmpi .sge),
    TRef.unary (TRef.of (T := ⟨S1, .i32⟩) main_call1_c_1) (TRef.of (T := ⟨S1x1x1, .i32⟩) main_call1_v7) (broadcastInDim S1x1x1 ![2] bcast_S1_S1x1x1_2),
    TRef.unary (TRef.of (T := ⟨S1x1x1, .i32⟩) main_call1_v7) (TRef.of (T := ⟨S32x262144x1, .i32⟩) main_call1_v8) (broadcastInDim S32x262144x1 ![0, 1, 2] bcast_S1x1x1_S32x262144x1_0_1_2),
    TRef.binary (TRef.of (T := ⟨S32x262144x1, .i32⟩) main_call1_v4) (TRef.of (T := ⟨S32x262144x1, .i32⟩) main_call1_v8) (TRef.of (T := ⟨S32x262144x1, .i1⟩) main_call1_v9) (cmpi .sle),
    TRef.binary (TRef.of (T := ⟨S32x262144x1, .i1⟩) main_call1_v6) (TRef.of (T := ⟨S32x262144x1, .i1⟩) main_call1_v9) (TRef.of (T := ⟨S32x262144x1, .i1⟩) main_call1_v10) andi,
    TRef.nullary (TRef.of (T := ⟨S_, .i1⟩) main_call1_c_3) (constantI S_ 1 1#1),
    TRef.binary (TRef.of (T := ⟨S32x262144x1, .i1⟩) main_call1_v10) (TRef.of (T := ⟨S_, .i1⟩) main_call1_c_3) (TRef.of (T := ⟨S32x262144, .i1⟩) main_call1_v11) (fun x v => Host.reduce IntOp.andi x v reducesTo_S32x262144x1_S32x262144_d2 h_S_),
    TRef.binary (TRef.of (T := ⟨S32x131072x2, .f32⟩) main_v9) (TRef.of (T := ⟨S32x262144x1, .i32⟩) main_call1_v4) (TRef.of (T := ⟨S32x262144x2, .f32⟩) main_call1_v12) (fun x i => Host.gather gather_S32x131072x2_S32x262144x1_S32x262144x2_2_1_0_0_1_2_112 x i),
    TRef.unary (TRef.of (T := ⟨S32x262144, .i1⟩) main_call1_v11) (TRef.of (T := ⟨S32x262144x2, .i1⟩) main_call1_v13) (broadcastInDim S32x262144x2 ![0, 1] bcast_S32x262144_S32x262144x2_0_1),
    TRef.nullary (TRef.of (T := ⟨S_, .f32⟩) main_call1_cst) (constant S_ .f32 0x7FC00000#32),
    TRef.unary (TRef.of (T := ⟨S_, .f32⟩) main_call1_cst) (TRef.of (T := ⟨S32x262144x2, .f32⟩) main_call1_v14) (broadcastInDim S32x262144x2 ![] bcast_S_S32x262144x2),
    TRef.ternary (TRef.of (T := ⟨S32x262144x2, .i1⟩) main_call1_v13) (TRef.of (T := ⟨S32x262144x2, .f32⟩) main_call1_v12) (TRef.of (T := ⟨S32x262144x2, .f32⟩) main_call1_v14) (TRef.of (T := ⟨S32x262144x2, .f32⟩) main_v12) select,
    binary main_v12 main_v1 main_v13 (subf : (⟨S32x262144x2, .f32⟩ : BufTy).Contents (Elt F) → (⟨S32x262144x2, .f32⟩ : BufTy).Contents (Elt F) → (⟨S32x262144x2, .f32⟩ : BufTy).Contents (Elt F)),
    unary main_v13 main_v14 (Host.absf : (⟨S32x262144x2, .f32⟩ : BufTy).Contents (Elt F) → (⟨S32x262144x2, .f32⟩ : BufTy).Contents (Elt F)),
    nullary main_cst_1 (constant S_ .f32 0x3F800000#32),
    unary main_cst_1 main_v15 (broadcastInDim S32x262144x2 ![] bcast_S_S32x262144x2 : (⟨S_, .f32⟩ : BufTy).Contents (Elt F) → (⟨S32x262144x2, .f32⟩ : BufTy).Contents (Elt F)),
    binary main_v14 main_v15 main_v16 (cmpf .olt : (⟨S32x262144x2, .f32⟩ : BufTy).Contents (Elt F) → (⟨S32x262144x2, .f32⟩ : BufTy).Contents (Elt F) → (⟨S32x262144x2, .i1⟩ : BufTy).Contents (Elt F)),
    nullary main_cst_2 (constant S_ .f32 0x3F000000#32),
    unary main_cst_2 main_v17 (broadcastInDim S32x262144x2 ![] bcast_S_S32x262144x2 : (⟨S_, .f32⟩ : BufTy).Contents (Elt F) → (⟨S32x262144x2, .f32⟩ : BufTy).Contents (Elt F)),
    binary main_v17 main_v13 main_v18 (mulf : (⟨S32x262144x2, .f32⟩ : BufTy).Contents (Elt F) → (⟨S32x262144x2, .f32⟩ : BufTy).Contents (Elt F) → (⟨S32x262144x2, .f32⟩ : BufTy).Contents (Elt F)),
    binary main_v18 main_v13 main_v19 (mulf : (⟨S32x262144x2, .f32⟩ : BufTy).Contents (Elt F) → (⟨S32x262144x2, .f32⟩ : BufTy).Contents (Elt F) → (⟨S32x262144x2, .f32⟩ : BufTy).Contents (Elt F)),
    nullary main_cst_3 (constant S_ .f32 0x3F000000#32),
    unary main_cst_3 main_v20 (broadcastInDim S32x262144x2 ![] bcast_S_S32x262144x2 : (⟨S_, .f32⟩ : BufTy).Contents (Elt F) → (⟨S32x262144x2, .f32⟩ : BufTy).Contents (Elt F)),
    binary main_v14 main_v20 main_v21 (subf : (⟨S32x262144x2, .f32⟩ : BufTy).Contents (Elt F) → (⟨S32x262144x2, .f32⟩ : BufTy).Contents (Elt F) → (⟨S32x262144x2, .f32⟩ : BufTy).Contents (Elt F)),
    TRef.ternary (TRef.of (T := ⟨S32x262144x2, .i1⟩) main_v16) (TRef.of (T := ⟨S32x262144x2, .f32⟩) main_v19) (TRef.of (T := ⟨S32x262144x2, .f32⟩) main_v21) (TRef.of (T := ⟨S32x262144x2, .f32⟩) main_v22) select,
    unary main_v8 main_v23 (uitofp .f32 : (⟨S32x262144, .i1⟩ : BufTy).Contents (Elt F) → (⟨S32x262144, .f32⟩ : BufTy).Contents (Elt F)),
    unary main_v23 main_v24 (broadcastInDim S32x262144x1 ![0, 1] bcast_S32x262144_S32x262144x1_0_1 : (⟨S32x262144, .f32⟩ : BufTy).Contents (Elt F) → (⟨S32x262144x1, .f32⟩ : BufTy).Contents (Elt F)),
    unary main_v24 main_v25 (broadcastInDim S32x262144x2 ![0, 1, 2] bcast_S32x262144x1_S32x262144x2_0_1_2 : (⟨S32x262144x1, .f32⟩ : BufTy).Contents (Elt F) → (⟨S32x262144x2, .f32⟩ : BufTy).Contents (Elt F)),
    binary main_v22 main_v25 main_v26 (mulf : (⟨S32x262144x2, .f32⟩ : BufTy).Contents (Elt F) → (⟨S32x262144x2, .f32⟩ : BufTy).Contents (Elt F) → (⟨S32x262144x2, .f32⟩ : BufTy).Contents (Elt F)),
    nullary main_cst_4 (constant S_ .f32 0x00000000#32),
    binary main_v26 main_cst_4 main_v27 ((fun x v => Host.reduceAdd x v reducesTo_S32x262144x2_S_d0_1_2 h_S_) : (⟨S32x262144x2, .f32⟩ : BufTy).Contents (Elt F) → (⟨S_, .f32⟩ : BufTy).Contents (Elt F) → (⟨S_, .f32⟩ : BufTy).Contents (Elt F)),
    nullary main_cst_5 (constant S_ .f32 0x00000000#32),
    binary main_v23 main_cst_5 main_v28 ((fun x v => Host.reduceAdd x v reducesTo_S32x262144_S_d0_1 h_S_) : (⟨S32x262144, .f32⟩ : BufTy).Contents (Elt F) → (⟨S_, .f32⟩ : BufTy).Contents (Elt F) → (⟨S_, .f32⟩ : BufTy).Contents (Elt F)),
    nullary main_cst_6 (constant S_ .f32 0x3F800000#32),
    binary main_cst_6 main_v28 main_v29 (maximumf : (⟨S_, .f32⟩ : BufTy).Contents (Elt F) → (⟨S_, .f32⟩ : BufTy).Contents (Elt F) → (⟨S_, .f32⟩ : BufTy).Contents (Elt F)),
    binary main_v27 main_v29 main_v30 (Host.divf : (⟨S_, .f32⟩ : BufTy).Contents (Elt F) → (⟨S_, .f32⟩ : BufTy).Contents (Elt F) → (⟨S_, .f32⟩ : BufTy).Contents (Elt F)),
    nullary main_cst_7 (constant S_ .f32 0x3F800000#32),
    binary main_v30 main_cst_7 main_v31 (mulf : (⟨S_, .f32⟩ : BufTy).Contents (Elt F) → (⟨S_, .f32⟩ : BufTy).Contents (Elt F) → (⟨S_, .f32⟩ : BufTy).Contents (Elt F)) ]

set_option maxRecDepth 8192 in
/-- The line is its four stretches in a row. -/
theorem ops_split : (ops : List (HloOp τ sig (Elt F))) = opsA ++ opsB ++ opsC ++ opsD := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., unary_bufs_sub .., reshape_bufs_sub .., unary_bufs_sub .., unary_bufs_sub .., reshape_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., binary_bufs_sub .., nullary_bufs_sub .., binary_bufs_sub .., nullary_bufs_sub .., binary_bufs_sub .., nullary_bufs_sub .., binary_bufs_sub .., binary_bufs_sub .., nullary_bufs_sub .., binary_bufs_sub ..⟩

/-! ## Stretch A, from any contents `W`: what it computes from the two arguments -/

theorem opsA_v1 (W : Valuation τ sig (Elt F)) :
    after (opsA (F := F)) W (Proc.devRef .tc main_v1) = Cert.MaskedLoss.targets (W (Proc.devRef .tc main_arg1)) := by
  after_results_simp <;> rfl

theorem opsA_v8 (W : Valuation τ sig (Elt F)) :
    after (opsA (F := F)) W (Proc.devRef .tc main_v8) = Cert.MaskedLoss.maskBits (W (Proc.devRef .tc main_arg1)) := by
  after_results_simp <;> rfl

theorem opsA_v9 (W : Valuation τ sig (Elt F)) :
    after (opsA (F := F)) W (Proc.devRef .tc main_v9) = Cert.MaskedLoss.rows (W (Proc.devRef .tc main_arg0)) := by
  after_results_simp <;> rfl

theorem opsA_v11 (W : Valuation τ sig (Elt F)) :
    after (opsA (F := F)) W (Proc.devRef .tc main_v11) = Cert.MaskedLoss.rowIndex (W (Proc.devRef .tc main_arg1)) := by
  after_results_simp <;> rfl

/-! ## Stretch B: the gather of the rows it finds at the index it finds; the targets and the mask bits kept -/

/-- Read at their own types, the contents of the rows' buffer, of the index's buffer and of the gather's result
    buffer are the contents themselves. -/
theorem ofBuf_v9 (v : (Proc.devRef (τ := τ) .tc main_v9).ty.Contents (Elt F)) :
    (TRef.of (T := ⟨S32x131072x2, .f32⟩) main_v9).ofBuf v = v := rfl
theorem ofBuf_v11 (v : (Proc.devRef (τ := τ) .tc main_v11).ty.Contents (Elt F)) :
    (TRef.of (T := ⟨S32x262144x1, .i32⟩) main_v11).ofBuf v = v := rfl
theorem toBuf_v12 (v : (⟨S32x262144x2, .f32⟩ : BufTy).Contents (Elt F)) :
    (TRef.of (T := ⟨S32x262144x2, .f32⟩) main_v12).toBuf v = v := rfl

/-- The stretch's operations are spelt over typed references: each value is carried to its buffer's type and back.
    With those pairs cancelled, what is left is `takeRows` letter for letter. -/
theorem opsB_v12 (W : Valuation τ sig (Elt F)) :
    after (opsB (F := F)) W (Proc.devRef .tc main_v12)
      = Cert.MaskedLoss.takeRows (W (Proc.devRef .tc main_v9)) (W (Proc.devRef .tc main_v11)) := by
  after_results_simp
  simp only [Cert.Lib.TypedRef.ofBuf_toBuf, ofBuf_v9, ofBuf_v11]
  unfold Cert.MaskedLoss.takeRows Cert.MaskedLoss.wrapIndex
  exact toBuf_v12 _

theorem opsB_v1 (W : Valuation τ sig (Elt F)) :
    after (opsB (F := F)) W (Proc.devRef .tc main_v1) = W (Proc.devRef .tc main_v1) := by
  after_results_simp <;> rfl

theorem opsB_v8 (W : Valuation τ sig (Elt F)) :
    after (opsB (F := F)) W (Proc.devRef .tc main_v8) = W (Proc.devRef .tc main_v8) := by
  after_results_simp <;> rfl

/-! ## Stretch C: the smooth-L1 value of the gathered rows against the targets; the mask bits kept -/

theorem opsC_v22 (W : Valuation τ sig (Elt F)) :
    after (opsC (F := F)) W (Proc.devRef .tc main_v22)
      = Cert.MaskedLoss.smoothL1 (W (Proc.devRef .tc main_v12)) (W (Proc.devRef .tc main_v1)) := by
  after_results_simp <;> rfl

theorem opsC_v8 (W : Valuation τ sig (Elt F)) :
    after (opsC (F := F)) W (Proc.devRef .tc main_v8) = W (Proc.devRef .tc main_v8) := by
  after_results_simp <;> rfl

/-! ## Stretch D: the scalar, from the entrywise values and the mask bits it finds -/

/-- From entrywise values `s` and mask bits `b`: (0 + Σ s·mask) / max(1, 0 + Σ mask) · 1, the mask being `b` as
    numbers, repeated on both channels in the numerator. -/
def masked (s : (⟨S32x262144x2, .f32⟩ : BufTy).Contents (Elt F)) (b : (⟨S32x262144, .i1⟩ : BufTy).Contents (Elt F)) :
    (⟨S_, .f32⟩ : BufTy).Contents (Elt F) :=
  Cert.MaskedLoss.ratio
    (Host.reduceAdd
      (mulf s (broadcastInDim S32x262144x2 ![0, 1, 2] bcast_S32x262144x1_S32x262144x2_0_1_2
        (broadcastInDim S32x262144x1 ![0, 1] bcast_S32x262144_S32x262144x1_0_1 (uitofp .f32 b))))
      (constant S_ .f32 0x00000000#32) reducesTo_S32x262144x2_S_d0_1_2 h_S_)
    (Host.reduceAdd (uitofp .f32 b : (⟨S32x262144, .f32⟩ : BufTy).Contents (Elt F)) (constant S_ .f32 0x00000000#32) reducesTo_S32x262144_S_d0_1 h_S_)

/-- The loss is `masked` at the smooth-L1 values of the gathered rows and the mask bits of y. -/
theorem lossValue_eq (x : (⟨S32x262144, .f32⟩ : BufTy).Contents (Elt F)) (y : (⟨S32x262144x4, .f32⟩ : BufTy).Contents (Elt F)) :
    Cert.MaskedLoss.lossValue x y
      = masked (Cert.MaskedLoss.smoothL1 (Cert.MaskedLoss.takeRows (Cert.MaskedLoss.rows x) (Cert.MaskedLoss.rowIndex y)) (Cert.MaskedLoss.targets y))
          (Cert.MaskedLoss.maskBits y) := rfl

theorem opsD_v31 (W : Valuation τ sig (Elt F)) :
    after (opsD (F := F)) W (Proc.devRef .tc main_v31)
      = masked (W (Proc.devRef .tc main_v22)) (W (Proc.devRef .tc main_v8)) := by
  after_results_simp <;> rfl

/-! ## The whole line -/

/-- From any contents, the line leaves the loss of the two arguments' contents in the result buffer. -/
theorem result_eq (W : Valuation τ sig (Elt F)) :
    after (ops (F := F)) W (Proc.devRef .tc main_v31)
      = Cert.MaskedLoss.lossValue (W (Proc.devRef .tc main_arg0)) (W (Proc.devRef .tc main_arg1)) := by
  rw [ops_split, after_append, after_append, after_append, opsD_v31, opsC_v22, opsC_v8, opsB_v12, opsB_v1, opsB_v8,
    opsA_v9, opsA_v11, opsA_v1, opsA_v8, lossValue_eq]

/-- No operation of the line writes the first argument's buffer. -/
theorem arg0_kept (W : Valuation τ sig (Elt F)) :
    after (ops (F := F)) W (Proc.devRef .tc main_arg0) = W (Proc.devRef .tc main_arg0) := by
  after_results_simp <;> rfl

/-- No operation of the line writes the second argument's buffer. -/
theorem arg1_kept (W : Valuation τ sig (Elt F)) :
    after (ops (F := F)) W (Proc.devRef .tc main_arg1) = W (Proc.devRef .tc main_arg1) := by
  after_results_simp <;> rfl

/-- On every device, for any float values, from any memory with zero counters: every weakly fair execution of
    @main terminates with the result buffer at the loss of the two arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = Cert.MaskedLoss.lossValue (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v31).trans (result_eq (launchContents m c)),
      (h c main_arg0).trans (arg0_kept (launchContents m c)),
      (h c main_arg1).trans (arg1_kept (launchContents m c))⟩)
    (run_seq scopedRefs_eq scopedSems_eq defs main (fun _ => ops) main_eq (fun _ => ops_sub) m ρ)

end Cert.ReferenceIdeal.RefValue

end
-- ==== Proof.lean ====
/-
  The kernel computes, batch by batch and half by half, the masked smooth-L1 total of the gathered rows against the targets and
  the total of the two-channel mask, in two [32, 1, 1] arrays; its host lines total them, halve the second, and return
  (first / max(1, half of second)) · 1. The reference totals `smoothL1 · mask` over [32, 262144, 2] and the mask over
  [32, 262144] and returns (total / max(1, count)) · 1. On the extended reals the two are the same number: the kernel's
  [32, 4096, 128] operands are row-major re-layings of the reference's [32, 262144, 2] arrays (a permutation of the entries, and
  + is commutative and associative), and the mask entries are the reals 0 and 1, so half of twice their total is their total.
  No finiteness of the inputs is needed.

  The three frames are the generated frame certificates (the reference's is its run with the result dropped); the ideal pass
  rewrote nothing, so `preserves` is `True`.
-/
import proofs.«130656_j46858093200031_2_alg».proof.Defs
import proofs.«130656_j46858093200031_2_alg».proof.Proof.Gen.Kernel
import proofs.«130656_j46858093200031_2_alg».proof.Proof.Gen.Kernel.Frame
import proofs.«130656_j46858093200031_2_alg».proof.Proof.Gen.KernelIdeal
import proofs.«130656_j46858093200031_2_alg».proof.Proof.Gen.KernelIdeal.Frame
import proofs.«130656_j46858093200031_2_alg».proof.Proof.Gen.ReferenceIdeal
import proofs.«130656_j46858093200031_2_alg».proof.Proof.Gen.Pre_finite_inputs
import proofs.«130656_j46858093200031_2_alg».proof.Proof.Bridge
import proofs.«130656_j46858093200031_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the loss of the (agreeing) arguments in their result buffer. -/
theorem algebraic : Cert.algebraic_KernelIdeal_ReferenceIdeal := by
  intro m ρ m' ρ' _ hagree
  refine ⟨fun c => Cert.MaskedLoss.lossValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.tail_eq_loss m c), (h c).2⟩)
      (Cert.KernelIdeal.KValue.run (F := Ideal) m ρ)
  · exact (θ_run Cert.ReferenceIdeal.defs _ _).mono
      (fun _ h c => ⟨(h c).1.trans (by rw [(hagree c).1, (hagree c).2]), (h c).2⟩)
      (Cert.ReferenceIdeal.RefValue.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
